-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x3200000 : Shape := ⟨2, ![2, 3200000]⟩
abbrev S3200000x8 : Shape := ⟨2, ![3200000, 8]⟩
abbrev S24x32 : Shape := ⟨2, ![24, 32]⟩
abbrev S32 : Shape := ⟨1, ![32]⟩
abbrev S32x8 : Shape := ⟨2, ![32, 8]⟩
abbrev S8 : Shape := ⟨1, ![8]⟩
abbrev S16x32 : Shape := ⟨2, ![16, 32]⟩
abbrev S_ : Shape := ⟨0, ![]⟩
abbrev S1x3200000 : Shape := ⟨2, ![1, 3200000]⟩
abbrev S3200000 : Shape := ⟨1, ![3200000]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S3200000x8 : S_.BroadcastsInDim S3200000x8 (![] : Fin 0 → Fin S3200000x8.rank)
  reducesTo_S3200000x8_S_d0_1 : S3200000x8.ReducesTo [0, 1] S_
  bcast_S_S24x32 : S_.BroadcastsInDim S24x32 (![] : Fin 0 → Fin S24x32.rank)
  reducesTo_S24x32_S_d0_1 : S24x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_
  bcast_S_S16x32 : S_.BroadcastsInDim S16x32 (![] : Fin 0 → Fin S16x32.rank)
  reducesTo_S16x32_S_d0_1 : S16x32.ReducesTo [0, 1] S_
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part3 {F : FTy → Type} [FloatOps F] (main_v48 : IVec S_ 1) (main_v50 : IVec S3200000 32) (main_c_18 : IVec S_ 32) : IVec S_ 1 :=
  let main_v51 : IVec S3200000 32 := broadcastInDim S3200000 ![] bcast_S_S3200000 main_c_18
  let main_v52 : IVec S3200000 1 := cmpi .sge main_v50 main_v51
  let main_c_19 : IVec S_ 1 := constantI S_ 1 1#1
  let main_v53 : IVec S_ 1 := (fun x v => Host.reduce IntOp.andi x v reducesTo_S3200000_S_d0 h_S_) main_v52 main_c_19
  let main_v54 : IVec S_ 1 := andi main_v48 main_v53
  main_v54

def fn_part2 {F : FTy → Type} [FloatOps F] (main_arg1 : IVec S2x3200000 32) (main_arg8 : FVec F S32 .f32) (main_arg9 : FVec F S32x8 .f32) (main_arg10 : FVec F S8 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x8 .f32 := Host.absf main_arg9
  let main_cst_14 : FVec F S_ .f32 := constant S_ .f32 0x7F800000#32
  let main_v40 : FVec F S32x8 .f32 := broadcastInDim S32x8 ![] bcast_S_S32x8 main_cst_14
  let main_v41 : IVec S32x8 1 := cmpf .olt main_v39 main_v40
  let main_c_15 : IVec S_ 1 := constantI S_ 1 1#1
  let main_v42 : IVec S_ 1 := (fun x v => Host.reduce IntOp.andi x v reducesTo_S32x8_S_d0_1 h_S_) main_v41 main_c_15
  let main_v43 : IVec S_ 1 := andi main_v38 main_v42
  let main_v44 : FVec F S8 .f32 := Host.absf main_arg10
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_v49 : IVec S1x3200000 32 := (extractStridedSlice S1x3200000 ![0, 0] · slices_S2x3200000_S1x3200000_0_0) main_arg1
  let main_v50 : IVec S3200000 32 := shapeCast S3200000 main_v49 shapeCasts_S1x3200000_S3200000
  let main_c_18 : IVec S_ 32 := constantI S_ 32 0#32
  fn_part3 (F := F) main_v48 main_v50 main_c_18

def fn_part1 {F : FTy → Type} [FloatOps F] (main_arg1 : IVec S2x3200000 32) (main_arg5 : FVec F S32x8 .f32) (main_arg6 : FVec F S8 .f32) (main_arg7 : FVec F S16x32 .f32) (main_arg8 : FVec F S32 .f32) (main_arg9 : FVec F S32x8 .f32) (main_arg10 : FVec F S8 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x8 .f32 := Host.absf main_arg5
  let main_cst_6 : FVec F S_ .f32 := constant S_ .f32 0x7F800000#32
  let main_v20 : FVec F S32x8 .f32 := broadcastInDim S32x8 ![] bcast_S_S32x8 main_cst_6
  let main_v21 : IVec S32x8 1 := cmpf .olt main_v19 main_v20
  let main_c_7 : IVec S_ 1 := constantI S_ 1 1#1
  let main_v22 : IVec S_ 1 := (fun x v => Host.reduce IntOp.andi x v reducesTo_S32x8_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S16x32 .f32 := Host.absf main_arg7
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S100000x8 .f32) (main_arg1 : IVec S2x3200000 32) (main_arg2 : FVec F S3200000x8 .f32) (main_arg3 : FVec F S24x32 .f32) (main_arg4 : FVec F S32 .f32) (main_arg5 : FVec F S32x8 .f32) (main_arg6 : FVec F S8 .f32) (main_arg7 : FVec F S16x32 .f32) (main_arg8 : FVec F S32 .f32) (main_arg9 : FVec F S32x8 .f32) (main_arg10 : FVec F S8 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S3200000x8 .f32 := Host.absf main_arg2
  let main_cst_0 : FVec F S_ .f32 := constant S_ .f32 0x7F800000#32
  let main_v5 : FVec F S3200000x8 .f32 := broadcastInDim S3200000x8 ![] bcast_S_S3200000x8 main_cst_0
  let main_v6 : IVec S3200000x8 1 := cmpf .olt main_v4 main_v5
  let main_c_1 : IVec S_ 1 := constantI S_ 1 1#1
  let main_v7 : IVec S_ 1 := (fun x v => Host.reduce IntOp.andi x v reducesTo_S3200000x8_S_d0_1 h_S_) main_v6 main_c_1
  let main_v8 : IVec S_ 1 := andi main_v3 main_v7
  let main_v9 : FVec F S24x32 .f32 := Host.absf main_arg3
  let main_cst_2 : FVec F S_ .f32 := constant S_ .f32 0x7F800000#32
  let main_v10 : FVec F S24x32 .f32 := broadcastInDim S24x32 ![] bcast_S_S24x32 main_cst_2
  let main_v11 : IVec S24x32 1 := cmpf .olt main_v9 main_v10
  let main_c_3 : IVec S_ 1 := constantI S_ 1 1#1
  let main_v12 : IVec S_ 1 := (fun x v => Host.reduce IntOp.andi x v reducesTo_S24x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg1 main_arg5 main_arg6 main_arg7 main_arg8 main_arg9 main_arg10 main_v13 main_v16
-- ==== Kernel.lean ====
abbrev S100000x8 : Shape := ⟨2, ![100000, 8]⟩
abbrev S2x3200000 : Shape := ⟨2, ![2, 3200000]⟩
abbrev S3200000x8 : Shape := ⟨2, ![3200000, 8]⟩
abbrev S24x32 : Shape := ⟨2, ![24, 32]⟩
abbrev S32 : Shape := ⟨1, ![32]⟩
abbrev S32x8 : Shape := ⟨2, ![32, 8]⟩
abbrev S8 : Shape := ⟨1, ![8]⟩
abbrev S16x32 : Shape := ⟨2, ![16, 32]⟩
abbrev S1x3200000 : Shape := ⟨2, ![1, 3200000]⟩
abbrev S3200000 : Shape := ⟨1, ![3200000]⟩
abbrev S8x100000 : Shape := ⟨2, ![8, 100000]⟩
abbrev S_ : Shape := ⟨0, ![]⟩
abbrev S3200000x1 : Shape := ⟨2, ![3200000, 1]⟩
abbrev S8x3200000 : Shape := ⟨2, ![8, 3200000]⟩
abbrev S8x32 : Shape := ⟨2, ![8, 32]⟩
abbrev S32x1 : Shape := ⟨2, ![32, 1]⟩
abbrev S8x1 : Shape := ⟨2, ![8, 1]⟩
abbrev S8x160000 : Shape := ⟨2, ![8, 160000]⟩
abbrev S32x160000 : Shape := ⟨2, ![32, 160000]⟩
abbrev S100000 : Shape := ⟨1, ![100000]⟩
abbrev S1x100000 : Shape := ⟨2, ![1, 100000]⟩
abbrev S32x100000 : Shape := ⟨2, ![32, 100000]⟩

abbrev nBuf : Space → Nat
  | .hbm => 85
  | .vmem => 22
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S3200000x8, .f32⟩
  | .hbm, ⟨3, _⟩ => ⟨S24x32, .f32⟩
  | .hbm, ⟨4, _⟩ => ⟨S32, .f32⟩
  | .hbm, ⟨5, _⟩ => ⟨S32x8, .f32⟩
  | .hbm, ⟨6, _⟩ => ⟨S8, .f32⟩
  | .hbm, ⟨7, _⟩ => ⟨S16x32, .f32⟩
  | .hbm, ⟨8, _⟩ => ⟨S32, .f32⟩
  | .hbm, ⟨9, _⟩ => ⟨S32x8, .f32⟩
  | .hbm, ⟨10, _⟩ => ⟨S8, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S8x100000, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S8x3200000, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S8x3200000, .f32⟩
  | .hbm, ⟨34, _⟩ => ⟨S8x3200000, .f32⟩
  | .hbm, ⟨35, _⟩ => ⟨S8x32, .f32⟩
  | .hbm, ⟨36, _⟩ => ⟨S32x8, .f32⟩
  | .hbm, ⟨37, _⟩ => ⟨S8x32, .f32⟩
  | .hbm, ⟨38, _⟩ => ⟨S32x8, .f32⟩
  | .hbm, ⟨39, _⟩ => ⟨S8x32, .f32⟩
  | .hbm, ⟨40, _⟩ => ⟨S32x8, .f32⟩
  | .hbm, ⟨41, _⟩ => ⟨S8x32, .f32⟩
  | .hbm, ⟨42, _⟩ => ⟨S32x1, .f32⟩
  | .hbm, ⟨43, _⟩ => ⟨S8x1, .f32⟩
  | .hbm, ⟨44, _⟩ => ⟨S8x3200000, .f32⟩
  | .hbm, ⟨45, _⟩ => ⟨S_, .f32⟩
  | .hbm, ⟨46, _⟩ => ⟨S8x100000, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S8x100000, .f32⟩
  | .hbm, ⟨56, _⟩ => ⟨S_, .f32⟩
  | .hbm, ⟨57, _⟩ => ⟨S100000, .f32⟩
  | .hbm, ⟨58, _⟩ => ⟨S_, .i32⟩
  | .hbm, ⟨59, _⟩ => ⟨S3200000, .i32⟩
  | .hbm, ⟨60, _⟩ => ⟨S3200000, .i1⟩
  | .hbm, ⟨61, _⟩ => ⟨S_, .i32⟩
  | .hbm, ⟨62, _⟩ => ⟨S3200000, .i32⟩
  | .hbm, ⟨63, _⟩ => ⟨S3200000, .i32⟩
  | .hbm, ⟨64, _⟩ => ⟨S3200000, .i32⟩
  | .hbm, ⟨65, _⟩ => ⟨S3200000x1, .i32⟩
  | .hbm, ⟨66, _⟩ => ⟨S_, .f32⟩
  | .hbm, ⟨67, _⟩ => ⟨S3200000, .f32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S1x100000, .f32⟩
  | .hbm, ⟨73, _⟩ => ⟨S8x100000, .f32⟩
  | .hbm, ⟨74, _⟩ => ⟨S8x100000, .f32⟩
  | .hbm, ⟨75, _⟩ => ⟨S8x32, .f32⟩
  | .hbm, ⟨76, _⟩ => ⟨S32x8, .f32⟩
  | .hbm, ⟨77, _⟩ => ⟨S8x32, .f32⟩
  | .hbm, ⟨78, _⟩ => ⟨S32x8, .f32⟩
  | .hbm, ⟨79, _⟩ => ⟨S8x32, .f32⟩
  | .hbm, ⟨80, _⟩ => ⟨S32x1, .f32⟩
  | .hbm, ⟨81, _⟩ => ⟨S8x1, .f32⟩
  | .hbm, ⟨82, _⟩ => ⟨S8x100000, .f32⟩
  | .hbm, ⟨83, _⟩ => ⟨S3200000x8, .f32⟩
  | .hbm, ⟨84, _⟩ => ⟨S100000x8, .f32⟩
  | .local _ .vmem, ⟨0, _⟩ => ⟨S8x160000, .f32⟩
  | .local _ .vmem, ⟨1, _⟩ => ⟨S8x160000, .f32⟩
  | .local _ .vmem, ⟨2, _⟩ => ⟨S8x160000, .f32⟩
  | .local _ .vmem, ⟨3, _⟩ => ⟨S8x160000, .f32⟩
  | .local _ .vmem, ⟨4, _⟩ => ⟨S8x160000, .f32⟩
  | .local _ .vmem, ⟨5, _⟩ => ⟨S8x160000, .f32⟩
  | .local _ .vmem, ⟨6, _⟩ => ⟨S32x8, .f32⟩
  | .local _ .vmem, ⟨7, _⟩ => ⟨S32x8, .f32⟩
  | .local _ .vmem, ⟨8, _⟩ => ⟨S32x8, .f32⟩
  | .local _ .vmem, ⟨9, _⟩ => ⟨S32x1, .f32⟩
  | .local _ .vmem, ⟨10, _⟩ => ⟨S8x32, .f32⟩
  | .local _ .vmem, ⟨11, _⟩ => ⟨S8x1, .f32⟩
  | .local _ .vmem, ⟨12, _⟩ => ⟨S8x160000, .f32⟩
  | .local _ .vmem, ⟨13, _⟩ => ⟨S8x160000, .f32⟩
  | .local _ .vmem, ⟨14, _⟩ => ⟨S8x100000, .f32⟩
  | .local _ .vmem, ⟨15, _⟩ => ⟨S8x100000, .f32⟩
  | .local _ .vmem, ⟨16, _⟩ => ⟨S32x8, .f32⟩
  | .local _ .vmem, ⟨17, _⟩ => ⟨S32x8, .f32⟩
  | .local _ .vmem, ⟨18, _⟩ => ⟨S32x1, .f32⟩
  | .local _ .vmem, ⟨19, _⟩ => ⟨S8x32, .f32⟩
  | .local _ .vmem, ⟨20, _⟩ => ⟨S8x1, .f32⟩
  | .local _ .vmem, ⟨21, _⟩ => ⟨S8x100000, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_c_3 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x160000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x160000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x160000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x100000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x100000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x100000 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  transposes_S100000x8_S8x100000_1_0 : S100000x8.Transposes [1, 0] S8x100000
  bcast_S_S3200000 : S_.BroadcastsInDim S3200000 (![] : Fin 0 → Fin S3200000.rank)
  bcast_S3200000_S3200000x1_0 : S3200000.BroadcastsInDim S3200000x1 (![0] : Fin 1 → Fin S3200000x1.rank)
  transposes_S3200000x8_S8x3200000_1_0 : S3200000x8.Transposes [1, 0] S8x3200000
  slices_S24x32_S8x32_0_0 : S24x32.Slices ![0, 0] S8x32
  transposes_S8x32_S32x8_1_0 : S8x32.Transposes [1, 0] S32x8
  slices_S24x32_S8x32_8_0 : S24x32.Slices ![8, 0] S8x32
  slices_S24x32_S8x32_16_0 : S24x32.Slices ![16, 0] S8x32
  transposes_S32x8_S8x32_1_0 : S32x8.Transposes [1, 0] S8x32
  shapeCasts_S32_S32x1 : S32.ShapeCasts S32x1
  shapeCasts_S8_S8x1 : S8.ShapeCasts S8x1
  inb_S32x8_S32x8_0_0 : ∀ a, (![0, 0] : Fin 2 → Nat) a + S32x8.size a ≤ S32x8.size a
  h_S32x8 : 0 < S32x8.numel
  shapeCasts_S32x8_S32x8 : S32x8.ShapeCasts S32x8
  inb_S8x160000_S8x160000_0_0 : ∀ a, (![0, 0] : Fin 2 → Nat) a + S8x160000.size a ≤ S8x160000.size a
  h_S8x160000 : 0 < S8x160000.numel
  shapeCasts_S8x160000_S8x160000 : S8x160000.ShapeCasts S8x160000
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x160000 : S32x1.Broadcasts S32x160000
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x160000 : S8x1.Broadcasts S8x160000
  bcast_S_S8x100000 : S_.BroadcastsInDim S8x100000 (![] : Fin 0 → Fin S8x100000.rank)
  bcast_S_S100000 : S_.BroadcastsInDim S100000 (![] : Fin 0 → Fin S100000.rank)
  bcast_S100000_S1x100000_1 : S100000.BroadcastsInDim S1x100000 (![1] : Fin 1 → Fin S1x100000.rank)
  bcast_S1x100000_S8x100000_0_1 : S1x100000.BroadcastsInDim S8x100000 (![0, 1] : Fin 2 → Fin S8x100000.rank)
  slices_S16x32_S8x32_0_0 : S16x32.Slices ![0, 0] S8x32
  slices_S16x32_S8x32_8_0 : S16x32.Slices ![8, 0] S8x32
  inb_S8x100000_S8x100000_0_0 : ∀ a, (![0, 0] : Fin 2 → Nat) a + S8x100000.size a ≤ S8x100000.size a
  h_S8x100000 : 0 < S8x100000.numel
  shapeCasts_S8x100000_S8x100000 : S8x100000.ShapeCasts S8x100000
  broadcasts_S32x1_S32x100000 : S32x1.Broadcasts S32x100000
  broadcasts_S8x1_S8x100000 : S8x1.Broadcasts S8x100000
  transposes_S8x3200000_S3200000x8_1_0 : S8x3200000.Transposes [1, 0] S3200000x8
  transposes_S8x100000_S100000x8_1_0 : S8x100000.Transposes [1, 0] S100000x8
  gather_S8x100000_S3200000x1_S8x3200000_0_1_n_n_1_1_81_wf : GatherDims.WF S8x100000 S3200000x1 S8x3200000 [0] [1] [] [1] [] 1 ![8, 1]
  dot_S32x8_S8x160000_S32x160000_1_0_0_1_n_n_wf : DotDims.WF S32x8 S8x160000 S32x160000 [1] [0] [0] [1] [] []
  dot_S8x32_S32x160000_S8x160000_1_0_0_1_n_n_wf : DotDims.WF S8x32 S32x160000 S8x160000 [1] [0] [0] [1] [] []
  scatter_S8x100000_S3200000x1_S8x3200000_0_1_1_1_wf : ScatterDims.WF S8x100000 S3200000x1 S8x3200000 [0] [1] [1] 1
  scatter_S100000_S3200000x1_S3200000_n_0_0_1_wf : ScatterDims.WF S100000 S3200000x1 S3200000 [] [0] [0] 1
  dot_S32x8_S8x100000_S32x100000_1_0_0_1_n_n_wf : DotDims.WF S32x8 S8x100000 S32x100000 [1] [0] [0] [1] [] []
  dot_S8x32_S32x100000_S8x100000_1_0_0_1_n_n_wf : DotDims.WF S8x32 S32x100000 S8x100000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x160000.size a ≤ S8x3200000.size a
  hwx0_0 : ∀ i : grid0.Coords, EltTy.bits .f32 = 32 ∨ (Rect.block (s := S8x3200000) S8x160000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x160000.size a ≤ S8x3200000.size a
  hwx0_1 : ∀ i : grid0.Coords, EltTy.bits .f32 = 32 ∨ (Rect.block (s := S8x3200000) S8x160000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x160000.size a ≤ S8x3200000.size a
  hwx0_2 : ∀ i : grid0.Coords, EltTy.bits .f32 = 32 ∨ (Rect.block (s := S8x3200000) S8x160000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x8.size a ≤ S32x8.size a
  hwx0_3 : ∀ i : grid0.Coords, EltTy.bits .f32 = 32 ∨ (Rect.block (s := S32x8) S32x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x8.size a ≤ S32x8.size a
  hwx0_4 : ∀ i : grid0.Coords, EltTy.bits .f32 = 32 ∨ (Rect.block (s := S32x8) S32x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x8.size a ≤ S32x8.size a
  hwx0_5 : ∀ i : grid0.Coords, EltTy.bits .f32 = 32 ∨ (Rect.block (s := S32x8) S32x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x32.size a ≤ S8x32.size a
  hwx0_7 : ∀ i : grid0.Coords, EltTy.bits .f32 = 32 ∨ (Rect.block (s := S8x32) S8x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x1.size a ≤ S8x1.size a
  hwx0_8 : ∀ i : grid0.Coords, EltTy.bits .f32 = 32 ∨ (Rect.block (s := S8x1) S8x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x160000.size a ≤ S8x3200000.size a
  hwx0_9 : ∀ i : grid0.Coords, EltTy.bits .f32 = 32 ∨ (Rect.block (s := S8x3200000) S8x160000.size (cc0_transform_9 i) (hinb0_9 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x100000.size a ≤ S8x100000.size a
  hwx1_0 : ∀ i : grid1.Coords, EltTy.bits .f32 = 32 ∨ (Rect.block (s := S8x100000) S8x100000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x100000.size a ≤ S8x100000.size a
  hwx1_1 : ∀ i : grid1.Coords, EltTy.bits .f32 = 32 ∨ (Rect.block (s := S8x100000) S8x100000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x8.size a ≤ S32x8.size a
  hwx1_2 : ∀ i : grid1.Coords, EltTy.bits .f32 = 32 ∨ (Rect.block (s := S32x8) S32x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x8.size a ≤ S32x8.size a
  hwx1_3 : ∀ i : grid1.Coords, EltTy.bits .f32 = 32 ∨ (Rect.block (s := S32x8) S32x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .f32 = 32 ∨ (Rect.block (s := S32x1) S32x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x32.size a ≤ S8x32.size a
  hwx1_5 : ∀ i : grid1.Coords, EltTy.bits .f32 = 32 ∨ (Rect.block (s := S8x32) S8x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x1.size a ≤ S8x1.size a
  hwx1_6 : ∀ i : grid1.Coords, EltTy.bits .f32 = 32 ∨ (Rect.block (s := S8x1) S8x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8x100000.size a ≤ S8x100000.size a
  hwx1_7 : ∀ i : grid1.Coords, EltTy.bits .f32 = 32 ∨ (Rect.block (s := S8x100000) S8x100000.size (cc1_transform_7 i) (hinb1_7 i)).WholeWords (EltTy.packing .f32)

variable [Facts₀]

def gather_S8x100000_S3200000x1_S8x3200000_0_1_n_n_1_1_81 : GatherDims S8x100000 S3200000x1 S8x3200000 where
  offsetDims := [0]
  collapsedSliceDims := [1]
  operandBatchingDims := []
  startIndicesBatchingDims := []
  startIndexMap := [1]
  indexVectorDim := 1
  sliceSizes := ![8, 1]
  wf := gather_S8x100000_S3200000x1_S8x3200000_0_1_n_n_1_1_81_wf
def dot_S32x8_S8x160000_S32x160000_1_0_0_1_n_n : DotDims S32x8 S8x160000 S32x160000 where
  lhsContracting := [1]
  rhsContracting := [0]
  lhsNonContracting := [0]
  rhsNonContracting := [1]
  lhsBatch := []
  rhsBatch := []
  wf := dot_S32x8_S8x160000_S32x160000_1_0_0_1_n_n_wf
def dot_S8x32_S32x160000_S8x160000_1_0_0_1_n_n : DotDims S8x32 S32x160000 S8x160000 where
  lhsContracting := [1]
  rhsContracting := [0]
  lhsNonContracting := [0]
  rhsNonContracting := [1]
  lhsBatch := []
  rhsBatch := []
  wf := dot_S8x32_S32x160000_S8x160000_1_0_0_1_n_n_wf
def scatter_S8x100000_S3200000x1_S8x3200000_0_1_1_1 : ScatterDims S8x100000 S3200000x1 S8x3200000 where
  updateWindowDims := [0]
  insertedWindowDims := [1]
  scatterDimsToOperandDims := [1]
  indexVectorDim := 1
  wf := scatter_S8x100000_S3200000x1_S8x3200000_0_1_1_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S32x8_S8x100000_S32x100000_1_0_0_1_n_n : DotDims S32x8 S8x100000 S32x100000 where
  lhsContracting := [1]
  rhsContracting := [0]
  lhsNonContracting := [0]
  rhsNonContracting := [1]
  lhsBatch := []
  rhsBatch := []
  wf := dot_S32x8_S8x100000_S32x100000_1_0_0_1_n_n_wf
def dot_S8x32_S32x100000_S8x100000_1_0_0_1_n_n : DotDims S8x32 S32x100000 S8x100000 where
  lhsContracting := [1]
  rhsContracting := [0]
  lhsNonContracting := [0]
  rhsNonContracting := [1]
  lhsBatch := []
  rhsBatch := []
  wf := dot_S8x32_S32x100000_S8x100000_1_0_0_1_n_n_wf

abbrev win0_0 : Pipeline.Window sig grid0 :=
  Pipeline.Window.ofSpec (Memref.whole main_v11) S8x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8x160000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S8x160000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S32x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S32x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S32x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S8x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S8x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S8x160000.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v4) S8x100000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v51) S8x100000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S32x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S32x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S8x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S8x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v59) S8x100000.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x8 : Shape := ⟨2, ![100000, 8]⟩
abbrev S2x3200000 : Shape := ⟨2, ![2, 3200000]⟩
abbrev S3200000x8 : Shape := ⟨2, ![3200000, 8]⟩
abbrev S24x32 : Shape := ⟨2, ![24, 32]⟩
abbrev S32 : Shape := ⟨1, ![32]⟩
abbrev S32x8 : Shape := ⟨2, ![32, 8]⟩
abbrev S8 : Shape := ⟨1, ![8]⟩
abbrev S16x32 : Shape := ⟨2, ![16, 32]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x24 : Shape := ⟨2, ![3200000, 24]⟩
abbrev S3200000x32 : Shape := ⟨2, ![3200000, 32]⟩
abbrev S1x32 : Shape := ⟨2, ![1, 32]⟩
abbrev S1x8 : Shape := ⟨2, ![1, 8]⟩
abbrev S100000 : Shape := ⟨1, ![100000]⟩
abbrev S100000x1 : Shape := ⟨2, ![100000, 1]⟩
abbrev S100000x16 : Shape := ⟨2, ![100000, 16]⟩
abbrev S100000x32 : Shape := ⟨2, ![100000, 32]⟩

abbrev nBuf : Space → Nat
  | .hbm => 73
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S3200000x8, .f32⟩
  | .hbm, ⟨3, _⟩ => ⟨S24x32, .f32⟩
  | .hbm, ⟨4, _⟩ => ⟨S32, .f32⟩
  | .hbm, ⟨5, _⟩ => ⟨S32x8, .f32⟩
  | .hbm, ⟨6, _⟩ => ⟨S8, .f32⟩
  | .hbm, ⟨7, _⟩ => ⟨S16x32, .f32⟩
  | .hbm, ⟨8, _⟩ => ⟨S32, .f32⟩
  | .hbm, ⟨9, _⟩ => ⟨S32x8, .f32⟩
  | .hbm, ⟨10, _⟩ => ⟨S8, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x8, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x8, .f32⟩
  | .hbm, ⟨33, _⟩ => ⟨S3200000x24, .f32⟩
  | .hbm, ⟨34, _⟩ => ⟨S3200000x32, .f32⟩
  | .hbm, ⟨35, _⟩ => ⟨S1x32, .f32⟩
  | .hbm, ⟨36, _⟩ => ⟨S3200000x32, .f32⟩
  | .hbm, ⟨37, _⟩ => ⟨S3200000x32, .f32⟩
  | .hbm, ⟨38, _⟩ => ⟨S_, .f32⟩
  | .hbm, ⟨39, _⟩ => ⟨S3200000x32, .f32⟩
  | .hbm, ⟨40, _⟩ => ⟨S3200000x32, .f32⟩
  | .hbm, ⟨41, _⟩ => ⟨S3200000x8, .f32⟩
  | .hbm, ⟨42, _⟩ => ⟨S1x8, .f32⟩
  | .hbm, ⟨43, _⟩ => ⟨S3200000x8, .f32⟩
  | .hbm, ⟨44, _⟩ => ⟨S3200000x8, .f32⟩
  | .hbm, ⟨45, _⟩ => ⟨S_, .f32⟩
  | .hbm, ⟨46, _⟩ => ⟨S100000x8, .f32⟩
  | .hbm, ⟨47, _⟩ => ⟨S3200000x1, .i32⟩
  | .hbm, ⟨48, _⟩ => ⟨S100000x8, .f32⟩
  | .hbm, ⟨49, _⟩ => ⟨S_, .f32⟩
  | .hbm, ⟨50, _⟩ => ⟨S3200000, .f32⟩
  | .hbm, ⟨51, _⟩ => ⟨S_, .f32⟩
  | .hbm, ⟨52, _⟩ => ⟨S100000, .f32⟩
  | .hbm, ⟨53, _⟩ => ⟨S3200000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x8, .f32⟩
  | .hbm, ⟨60, _⟩ => ⟨S100000x8, .f32⟩
  | .hbm, ⟨61, _⟩ => ⟨S100000x16, .f32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x8, .f32⟩
  | .hbm, ⟨70, _⟩ => ⟨S1x8, .f32⟩
  | .hbm, ⟨71, _⟩ => ⟨S100000x8, .f32⟩
  | .hbm, ⟨72, _⟩ => ⟨S100000x8, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call1_cst : Ref sig .tc := ⟨.hbm, 66, rfl⟩
abbrev main_call1_v0 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x8_S3200000x8_S3200000x8_S3200000x24_d1 : Shape.Concatenates [S3200000x8, S3200000x8, S3200000x8] S3200000x24 1
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S8_S1x8_1 : S8.BroadcastsInDim S1x8 (![1] : Fin 1 → Fin S1x8.rank)
  bcast_S1x8_S3200000x8_0_1 : S1x8.BroadcastsInDim S3200000x8 (![0, 1] : Fin 2 → Fin S3200000x8.rank)
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  concatenates_S100000x8_S100000x8_S100000x16_d1 : Shape.Concatenates [S100000x8, S100000x8] S100000x16 1
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1x8_S100000x8_0_1 : S1x8.BroadcastsInDim S100000x8 (![0, 1] : Fin 2 → Fin S100000x8.rank)
  gather_S100000x8_S3200000x1_S3200000x8_1_0_n_n_0_1_18_wf : GatherDims.WF S100000x8 S3200000x1 S3200000x8 [1] [0] [] [0] [] 1 ![1, 8]
  dot_S3200000x24_S24x32_S3200000x32_1_0_0_1_n_n_wf : DotDims.WF S3200000x24 S24x32 S3200000x32 [1] [0] [0] [1] [] []
  dot_S3200000x32_S32x8_S3200000x8_1_0_0_1_n_n_wf : DotDims.WF S3200000x32 S32x8 S3200000x8 [1] [0] [0] [1] [] []
  scatter_S100000x8_S3200000x1_S3200000x8_1_0_0_1_wf : ScatterDims.WF S100000x8 S3200000x1 S3200000x8 [1] [0] [0] 1
  scatter_S100000_S3200000x1_S3200000_n_0_0_1_wf : ScatterDims.WF S100000 S3200000x1 S3200000 [] [0] [0] 1
  dot_S100000x16_S16x32_S100000x32_1_0_0_1_n_n_wf : DotDims.WF S100000x16 S16x32 S100000x32 [1] [0] [0] [1] [] []
  dot_S100000x32_S32x8_S100000x8_1_0_0_1_n_n_wf : DotDims.WF S100000x32 S32x8 S100000x8 [1] [0] [0] [1] [] []

variable [Facts₀]

def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def dot_S3200000x24_S24x32_S3200000x32_1_0_0_1_n_n : DotDims S3200000x24 S24x32 S3200000x32 where
  lhsContracting := [1]
  rhsContracting := [0]
  lhsNonContracting := [0]
  rhsNonContracting := [1]
  lhsBatch := []
  rhsBatch := []
  wf := dot_S3200000x24_S24x32_S3200000x32_1_0_0_1_n_n_wf
def dot_S3200000x32_S32x8_S3200000x8_1_0_0_1_n_n : DotDims S3200000x32 S32x8 S3200000x8 where
  lhsContracting := [1]
  rhsContracting := [0]
  lhsNonContracting := [0]
  rhsNonContracting := [1]
  lhsBatch := []
  rhsBatch := []
  wf := dot_S3200000x32_S32x8_S3200000x8_1_0_0_1_n_n_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def dot_S100000x32_S32x8_S100000x8_1_0_0_1_n_n : DotDims S100000x32 S32x8 S100000x8 where
  lhsContracting := [1]
  rhsContracting := [0]
  lhsNonContracting := [0]
  rhsNonContracting := [1]
  lhsBatch := []
  rhsBatch := []
  wf := dot_S100000x32_S32x8_S100000x8_1_0_0_1_n_n_wf

class Facts : Prop extends Facts₀ where

variable [Facts]
-- ==== Proof.KRun.lean ====
/-
  The idealized kernel program's run with its two results named.

  The program is five stretches: host operations, the edge layer's region, host operations (the aggregation), the node
  layer's region, and two transposes. Every weakly fair execution terminates without a fault, and in its final state every
  buffer that outlives the regions holds the contents of the last boundary of that chain. Read at the two result buffers
  this names the results; read at the eleven argument buffers it says the arguments are as launched.
-/
import proofs.«126178_j13786845020472_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result buffers at the last
    boundary's contents and the arguments as launched. -/
theorem run_named : θ_run defs (onTc (τ := τ) (main (F := F))) ⟨m, fun _ => 0, ρ⟩ (fun r => ∀ c : Dev nD,
      r.2.mem ((c.tc : Thread nD τ).loc main_v60) = W5 m ρ c (Proc.devRef .tc main_v60)
      ∧ r.2.mem ((c.tc : Thread nD τ).loc main_v61) = W5 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v60 (by decide)),
       h c _ (mem_uc main_v61 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.KRun

end
-- ==== Proof.KFold0.lean ====
/-
  The host operations before the edge layer's region, read as functions of the buffers they start from.

  From any contents W of the program's buffers, after the first stretch of host operations: the edge list's two rows are
  the slices of the edge list, reshaped to vectors; the node features are transposed; an edge's two gathered node columns
  are the gathers of the transposed node features by the wrapped rows, made columns; the edge features are transposed;
  the first layer's weight matrix is cut in its three blocks of eight rows, each transposed; the second layer's weight
  matrix is transposed; the two bias vectors are made columns.
-/
import proofs.«126178_j13786845020472_2_alg».proof.Proof.Gen.KernelIdeal.Launch
import Idealize.ShloMosaic.PureOps.Ideal
import Idealize.ShloMosaic.Lib.StableHlo.Run

set_option maxRecDepth 16384

noncomputable section

namespace Cert.KernelIdeal.KFold

open Cert.KernelIdeal Cert.KernelIdeal.Gen
open Idealize.ShloMosaic Idealize.ShloMosaic.TcCoe Idealize.SL.Sem Idealize.ShloMosaic.StableHlo

/-- Row r (0 or 1) of the edge list as a vector of integers: the source nodes (r = 0) or the target nodes (r = 1). -/
def rowOf0 (a1 : IVec S2x3200000 32) : IVec S3200000 32 :=
  fun i => shapeCast S3200000 (extractStridedSlice S1x3200000 ![0, 0] a1 slices_S2x3200000_S1x3200000_0_0) shapeCasts_S1x3200000_S3200000 i
def rowOf1 (a1 : IVec S2x3200000 32) : IVec S3200000 32 :=
  fun i => shapeCast S3200000 (extractStridedSlice S1x3200000 ![1, 0] a1 slices_S2x3200000_S1x3200000_1_0) shapeCasts_S1x3200000_S3200000 i

/-- The wrapped integers (the node count added where an integer is negative), as a column. -/
def wrapCol (row : IVec S3200000 32) : IVec S3200000x1 32 :=
  broadcastInDim S3200000x1 ![0] bcast_S3200000_S3200000x1_0
    (select (cmpi .slt row (broadcastInDim S3200000 ![] bcast_S_S3200000 (constantI S_ 32 0#32)))
      (addi row (broadcastInDim S3200000 ![] bcast_S_S3200000 (constantI S_ 32 100000#32))) row)

/-- The node features transposed: features down, nodes across. -/
def xT (a0 : FVec Ideal S100000x8 .f32) : FVec Ideal S8x100000 .f32 :=
  transpose S8x100000 [1, 0] a0 transposes_S100000x8_S8x100000_1_0

variable (W : Valuation τ sig (Elt Ideal))

theorem s0_v1 : after (hostOps0 (F := Ideal)) W (Proc.devRef .tc main_v1) = rowOf0 (W (Proc.devRef .tc main_arg1)) := by
  dsimp only [hostOps0]; after_results_simp <;> rfl

theorem s0_v4 : after (hostOps0 (F := Ideal)) W (Proc.devRef .tc main_v4) = xT (W (Proc.devRef .tc main_arg0)) := by
  dsimp only [hostOps0]; after_results_simp <;> rfl

theorem s0_v11 : after (hostOps0 (F := Ideal)) W (Proc.devRef .tc main_v11)
    = Host.gather gather_S8x100000_S3200000x1_S8x3200000_0_1_n_n_1_1_81 (xT (W (Proc.devRef .tc main_arg0)))
        (wrapCol (rowOf0 (W (Proc.devRef .tc main_arg1)))) := by
  dsimp only [hostOps0]; after_results_simp <;> rfl

theorem s0_v18 : after (hostOps0 (F := Ideal)) W (Proc.devRef .tc main_v18)
    = Host.gather gather_S8x100000_S3200000x1_S8x3200000_0_1_n_n_1_1_81 (xT (W (Proc.devRef .tc main_arg0)))
        (wrapCol (rowOf1 (W (Proc.devRef .tc main_arg1)))) := by
  dsimp only [hostOps0]; after_results_simp <;> rfl

theorem s0_v19 : after (hostOps0 (F := Ideal)) W (Proc.devRef .tc main_v19)
    = transpose S8x3200000 [1, 0] (W (Proc.devRef .tc main_arg2)) transposes_S3200000x8_S8x3200000_1_0 := by
  dsimp only [hostOps0]; after_results_simp <;> rfl

theorem s0_v21 : after (hostOps0 (F := Ideal)) W (Proc.devRef .tc main_v21)
    = transpose S32x8 [1, 0] (extractStridedSlice S8x32 ![0, 0] (W (Proc.devRef .tc main_arg3)) slices_S24x32_S8x32_0_0) transposes_S8x32_S32x8_1_0 := by
  dsimp only [hostOps0]; after_results_simp <;> rfl

theorem s0_v23 : after (hostOps0 (F := Ideal)) W (Proc.devRef .tc main_v23)
    = transpose S32x8 [1, 0] (extractStridedSlice S8x32 ![8, 0] (W (Proc.devRef .tc main_arg3)) slices_S24x32_S8x32_8_0) transposes_S8x32_S32x8_1_0 := by
  dsimp only [hostOps0]; after_results_simp <;> rfl

theorem s0_v25 : after (hostOps0 (F := Ideal)) W (Proc.devRef .tc main_v25)
    = transpose S32x8 [1, 0] (extractStridedSlice S8x32 ![16, 0] (W (Proc.devRef .tc main_arg3)) slices_S24x32_S8x32_16_0) transposes_S8x32_S32x8_1_0 := by
  dsimp only [hostOps0]; after_results_simp <;> rfl

theorem s0_v26 : after (hostOps0 (F := Ideal)) W (Proc.devRef .tc main_v26)
    = transpose S8x32 [1, 0] (W (Proc.devRef .tc main_arg5)) transposes_S32x8_S8x32_1_0 := by
  dsimp only [hostOps0]; after_results_simp <;> rfl

theorem s0_v27 : after (hostOps0 (F := Ideal)) W (Proc.devRef .tc main_v27)
    = fun i => shapeCast S32x1 (W (Proc.devRef .tc main_arg4)) shapeCasts_S32_S32x1 i := by
  dsimp only [hostOps0]; after_results_simp <;> rfl

theorem s0_v28 : after (hostOps0 (F := Ideal)) W (Proc.devRef .tc main_v28)
    = fun i => shapeCast S8x1 (W (Proc.devRef .tc main_arg6)) shapeCasts_S8_S8x1 i := by
  dsimp only [hostOps0]; after_results_simp <;> rfl

/-- The first stretch writes none of the arguments the later stretches read. -/
theorem s0_arg7 : after (hostOps0 (F := Ideal)) W (Proc.devRef .tc main_arg7) = W (Proc.devRef .tc main_arg7) := by
  dsimp only [hostOps0]; after_results_simp
theorem s0_arg8 : after (hostOps0 (F := Ideal)) W (Proc.devRef .tc main_arg8) = W (Proc.devRef .tc main_arg8) := by
  dsimp only [hostOps0]; after_results_simp
theorem s0_arg9 : after (hostOps0 (F := Ideal)) W (Proc.devRef .tc main_arg9) = W (Proc.devRef .tc main_arg9) := by
  dsimp only [hostOps0]; after_results_simp
theorem s0_arg10 : after (hostOps0 (F := Ideal)) W (Proc.devRef .tc main_arg10) = W (Proc.devRef .tc main_arg10) := by
  dsimp only [hostOps0]; after_results_simp

end Cert.KernelIdeal.KFold

end
-- ==== Proof.KFold1.lean ====
/-
  The host operations between the two regions, and the two after the second, read as functions of the buffers they
  start from.

  Between the regions: the edge layer's output, features down and edges across, is summed per node — a scatter that adds
  column e of the output onto column (wrapped source node of e) of a zero array —; the number of edges per node is a
  scatter of ones by the same wrapped integers; the aggregation is the quotient of the sums by the counts, a count of
  zero replaced by one. The node layer's weight matrix is cut in its two blocks of eight rows, each transposed; the last
  weight matrix is transposed; the two bias vectors are made columns. After the second region the two results are
  transposed back to edges (nodes) down, features across.
-/
import proofs.«126178_j13786845020472_2_alg».proof.Proof.KFold0
import Idealize.ShloMosaic.PureOps.Ideal

set_option maxRecDepth 16384

noncomputable section

namespace Cert.KernelIdeal.KFold

open Cert.KernelIdeal Cert.KernelIdeal.Gen
open Idealize.ShloMosaic Idealize.ShloMosaic.TcCoe Idealize.SL.Sem Idealize.ShloMosaic.StableHlo

/-- The number of edges whose (wrapped) source is each node, a count of zero replaced by one: a scatter of ones onto
    zeros, then the maximum with one. -/
def cntT (col : IVec S3200000x1 32) : FVec Ideal S100000 .f32 :=
  maximumf
    (Host.scatterAdd scatter_S100000_S3200000x1_S3200000_n_0_0_1
      (broadcastInDim S100000 ![] bcast_S_S100000 (constant (F := Ideal) S_ .f32 0x00000000#32)) col
      (broadcastInDim S3200000 ![] bcast_S_S3200000 (constant (F := Ideal) S_ .f32 0x3F800000#32)))
    (broadcastInDim S100000 ![] bcast_S_S100000 (constant (F := Ideal) S_ .f32 0x3F800000#32))

/-- The mean over a node's outgoing edges of the edge layer's output, features down and nodes across: the column sums
    divided by the counts spread over the eight feature rows. -/
def aggT (col : IVec S3200000x1 32) (emb : FVec Ideal S8x3200000 .f32) : FVec Ideal S8x100000 .f32 :=
  Host.divf (F := Ideal)
    (Host.scatterAdd scatter_S8x100000_S3200000x1_S8x3200000_0_1_1_1
      (broadcastInDim S8x100000 ![] bcast_S_S8x100000 (constant (F := Ideal) S_ .f32 0x00000000#32)) col emb)
    (broadcastInDim S8x100000 ![0, 1] bcast_S1x100000_S8x100000_0_1
      (broadcastInDim S1x100000 ![1] bcast_S100000_S1x100000_1 (cntT col)))

variable (W : Valuation τ sig (Elt Ideal))

theorem s1_v51 : after (hostOps1 (F := Ideal)) W (Proc.devRef .tc main_v51)
    = aggT (wrapCol (W (Proc.devRef .tc main_v1))) (W (Proc.devRef .tc main_v29)) := by
  dsimp only [hostOps1]; after_results_simp <;> rfl

theorem s1_v53 : after (hostOps1 (F := Ideal)) W (Proc.devRef .tc main_v53)
    = transpose S32x8 [1, 0] (extractStridedSlice S8x32 ![0, 0] (W (Proc.devRef .tc main_arg7)) slices_S16x32_S8x32_0_0) transposes_S8x32_S32x8_1_0 := by
  dsimp only [hostOps1]; after_results_simp <;> rfl

theorem s1_v55 : after (hostOps1 (F := Ideal)) W (Proc.devRef .tc main_v55)
    = transpose S32x8 [1, 0] (extractStridedSlice S8x32 ![8, 0] (W (Proc.devRef .tc main_arg7)) slices_S16x32_S8x32_8_0) transposes_S8x32_S32x8_1_0 := by
  dsimp only [hostOps1]; after_results_simp <;> rfl

theorem s1_v56 : after (hostOps1 (F := Ideal)) W (Proc.devRef .tc main_v56)
    = transpose S8x32 [1, 0] (W (Proc.devRef .tc main_arg9)) transposes_S32x8_S8x32_1_0 := by
  dsimp only [hostOps1]; after_results_simp <;> rfl

theorem s1_v57 : after (hostOps1 (F := Ideal)) W (Proc.devRef .tc main_v57)
    = fun i => shapeCast S32x1 (W (Proc.devRef .tc main_arg8)) shapeCasts_S32_S32x1 i := by
  dsimp only [hostOps1]; after_results_simp <;> rfl

theorem s1_v58 : after (hostOps1 (F := Ideal)) W (Proc.devRef .tc main_v58)
    = fun i => shapeCast S8x1 (W (Proc.devRef .tc main_arg10)) shapeCasts_S8_S8x1 i := by
  dsimp only [hostOps1]; after_results_simp <;> rfl

/-- The second stretch leaves the transposed node features and the edge layer's output as it found them. -/
theorem s1_v4 : after (hostOps1 (F := Ideal)) W (Proc.devRef .tc main_v4) = W (Proc.devRef .tc main_v4) := by
  dsimp only [hostOps1]; after_results_simp
theorem s1_v29 : after (hostOps1 (F := Ideal)) W (Proc.devRef .tc main_v29) = W (Proc.devRef .tc main_v29) := by
  dsimp only [hostOps1]; after_results_simp

/-- The two results are the transposes of the two regions' outputs. -/
theorem s2_v60 : after (hostOps2 (F := Ideal)) W (Proc.devRef .tc main_v60)
    = transpose S3200000x8 [1, 0] (W (Proc.devRef .tc main_v29)) transposes_S8x3200000_S3200000x8_1_0 := by
  dsimp only [hostOps2]; after_results <;> rfl
theorem s2_v61 : after (hostOps2 (F := Ideal)) W (Proc.devRef .tc main_v61)
    = transpose S100000x8 [1, 0] (W (Proc.devRef .tc main_v59)) transposes_S8x100000_S100000x8_1_0 := by
  dsimp only [hostOps2]; after_results <;> rfl

end Cert.KernelIdeal.KFold

end
-- ==== Proof.KChain.lean ====
/-
  The contents of the kernel program's buffers at each boundary of its five stretches, as functions of the arguments.

  The first region's nine input arrays are what the first stretch of host operations leaves; its output array is what
  its twenty grid points write back. The second stretch reads that output and the edge list's first row, so the second
  region's inputs are the transposed node features, the aggregation of the first region's output, and the node layer's
  re-laid weights. The two results are the transposes of the two regions' outputs.
-/
import proofs.«126178_j13786845020472_2_alg».proof.Proof.Gen.KernelIdeal.Frame
import proofs.«126178_j13786845020472_2_alg».proof.Proof.KFold1
import Idealize.ShloMosaic.PureOps.Ideal

set_option maxRecDepth 16384

noncomputable section

namespace Cert.KernelIdeal.KChain

open Cert.KernelIdeal Cert.KernelIdeal.Gen Cert.KernelIdeal.KFold
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- The source nodes' integers and the edge layer's output array, the two things the aggregation is made of. -/
abbrev srcCol : IVec S3200000x1 32 := wrapCol (rowOf0 (W0 m ρ c (Proc.devRef .tc main_arg1)))
abbrev dstCol : IVec S3200000x1 32 := wrapCol (rowOf1 (W0 m ρ c (Proc.devRef .tc main_arg1)))
abbrev edgeArr : FVec Ideal S8x3200000 .f32 := (dat0 (F := Ideal) (V1 m ρ) c).arrAt 9 cfg0.N

/-! ## The first region's input arrays -/

theorem V1_v11 : V1 m ρ c main_v11 = Host.gather gather_S8x100000_S3200000x1_S8x3200000_0_1_n_n_1_1_81 (xT (W0 m ρ c (Proc.devRef .tc main_arg0))) (srcCol m ρ c) :=
  s0_v11 (W0 m ρ c)
theorem V1_v18 : V1 m ρ c main_v18 = Host.gather gather_S8x100000_S3200000x1_S8x3200000_0_1_n_n_1_1_81 (xT (W0 m ρ c (Proc.devRef .tc main_arg0))) (dstCol m ρ c) :=
  s0_v18 (W0 m ρ c)
theorem V1_v19 : V1 m ρ c main_v19 = transpose S8x3200000 [1, 0] (W0 m ρ c (Proc.devRef .tc main_arg2)) transposes_S3200000x8_S8x3200000_1_0 :=
  s0_v19 (W0 m ρ c)
theorem V1_v21 : V1 m ρ c main_v21 = transpose S32x8 [1, 0] (extractStridedSlice S8x32 ![0, 0] (W0 m ρ c (Proc.devRef .tc main_arg3)) slices_S24x32_S8x32_0_0) transposes_S8x32_S32x8_1_0 :=
  s0_v21 (W0 m ρ c)
theorem V1_v23 : V1 m ρ c main_v23 = transpose S32x8 [1, 0] (extractStridedSlice S8x32 ![8, 0] (W0 m ρ c (Proc.devRef .tc main_arg3)) slices_S24x32_S8x32_8_0) transposes_S8x32_S32x8_1_0 :=
  s0_v23 (W0 m ρ c)
theorem V1_v25 : V1 m ρ c main_v25 = transpose S32x8 [1, 0] (extractStridedSlice S8x32 ![16, 0] (W0 m ρ c (Proc.devRef .tc main_arg3)) slices_S24x32_S8x32_16_0) transposes_S8x32_S32x8_1_0 :=
  s0_v25 (W0 m ρ c)
theorem V1_v26 : V1 m ρ c main_v26 = transpose S8x32 [1, 0] (W0 m ρ c (Proc.devRef .tc main_arg5)) transposes_S32x8_S8x32_1_0 :=
  s0_v26 (W0 m ρ c)
theorem V1_v27 : V1 m ρ c main_v27 = fun i => shapeCast S32x1 (W0 m ρ c (Proc.devRef .tc main_arg4)) shapeCasts_S32_S32x1 i :=
  s0_v27 (W0 m ρ c)
theorem V1_v28 : V1 m ρ c main_v28 = fun i => shapeCast S8x1 (W0 m ρ c (Proc.devRef .tc main_arg6)) shapeCasts_S8_S8x1 i :=
  s0_v28 (W0 m ρ c)

/-! ## After the first region -/

theorem W2_v1 : W2 m ρ c (Proc.devRef .tc main_v1) = rowOf0 (W0 m ρ c (Proc.devRef .tc main_arg1)) :=
  (W2_of_ne m ρ c main_v1 (by decide)).trans (s0_v1 (W0 m ρ c))
theorem W2_v4 : W2 m ρ c (Proc.devRef .tc main_v4) = xT (W0 m ρ c (Proc.devRef .tc main_arg0)) :=
  (W2_of_ne m ρ c main_v4 (by decide)).trans (s0_v4 (W0 m ρ c))
theorem W2_v29 : W2 m ρ c (Proc.devRef .tc main_v29) = edgeArr m ρ c := W2_arr m ρ c 9
theorem W2_arg7 : W2 m ρ c (Proc.devRef .tc main_arg7) = (W0 m ρ c (Proc.devRef .tc main_arg7)) :=
  (W2_of_ne m ρ c main_arg7 (by decide)).trans (s0_arg7 (W0 m ρ c))
theorem W2_arg8 : W2 m ρ c (Proc.devRef .tc main_arg8) = (W0 m ρ c (Proc.devRef .tc main_arg8)) :=
  (W2_of_ne m ρ c main_arg8 (by decide)).trans (s0_arg8 (W0 m ρ c))
theorem W2_arg9 : W2 m ρ c (Proc.devRef .tc main_arg9) = (W0 m ρ c (Proc.devRef .tc main_arg9)) :=
  (W2_of_ne m ρ c main_arg9 (by decide)).trans (s0_arg9 (W0 m ρ c))
theorem W2_arg10 : W2 m ρ c (Proc.devRef .tc main_arg10) = (W0 m ρ c (Proc.devRef .tc main_arg10)) :=
  (W2_of_ne m ρ c main_arg10 (by decide)).trans (s0_arg10 (W0 m ρ c))

/-! ## The second region's input arrays -/

theorem V3_v4 : V3 m ρ c main_v4 = xT (W0 m ρ c (Proc.devRef .tc main_arg0)) := (s1_v4 (W2 m ρ c)).trans (W2_v4 m ρ c)
theorem V3_v51 : V3 m ρ c main_v51 = aggT (srcCol m ρ c) (edgeArr m ρ c) := by
  refine (s1_v51 (W2 m ρ c)).trans ?_
  rw [W2_v1, W2_v29]
theorem V3_v53 : V3 m ρ c main_v53 = transpose S32x8 [1, 0] (extractStridedSlice S8x32 ![0, 0] (W0 m ρ c (Proc.devRef .tc main_arg7)) slices_S16x32_S8x32_0_0) transposes_S8x32_S32x8_1_0 := by
  refine (s1_v53 (W2 m ρ c)).trans ?_
  rw [W2_arg7]
theorem V3_v55 : V3 m ρ c main_v55 = transpose S32x8 [1, 0] (extractStridedSlice S8x32 ![8, 0] (W0 m ρ c (Proc.devRef .tc main_arg7)) slices_S16x32_S8x32_8_0) transposes_S8x32_S32x8_1_0 := by
  refine (s1_v55 (W2 m ρ c)).trans ?_
  rw [W2_arg7]
theorem V3_v56 : V3 m ρ c main_v56 = transpose S8x32 [1, 0] (W0 m ρ c (Proc.devRef .tc main_arg9)) transposes_S32x8_S8x32_1_0 := by
  refine (s1_v56 (W2 m ρ c)).trans ?_
  rw [W2_arg9]
theorem V3_v57 : V3 m ρ c main_v57 = fun i => shapeCast S32x1 (W0 m ρ c (Proc.devRef .tc main_arg8)) shapeCasts_S32_S32x1 i := by
  refine (s1_v57 (W2 m ρ c)).trans ?_
  rw [W2_arg8]
theorem V3_v58 : V3 m ρ c main_v58 = fun i => shapeCast S8x1 (W0 m ρ c (Proc.devRef .tc main_arg10)) shapeCasts_S8_S8x1 i := by
  refine (s1_v58 (W2 m ρ c)).trans ?_
  rw [W2_arg10]

/-! ## The two results -/

theorem res_edge : W5 m ρ c (Proc.devRef .tc main_v60)
    = transpose S3200000x8 [1, 0] (edgeArr m ρ c) transposes_S8x3200000_S3200000x8_1_0 := by
  refine (s2_v60 (W4 m ρ c)).trans ?_
  rw [W4_of_ne m ρ c main_v29 (by decide), show W3 m ρ c (Proc.devRef .tc main_v29) = _ from s1_v29 (W2 m ρ c), W2_v29]
theorem res_node : W5 m ρ c (Proc.devRef .tc main_v61)
    = transpose S100000x8 [1, 0] ((dat1 (F := Ideal) (V3 m ρ) c).arrAt 7 cfg1.N) transposes_S8x100000_S100000x8_1_0 := by
  refine (s2_v61 (W4 m ρ c)).trans ?_
  rw [W4_arr m ρ c 7]

end Cert.KernelIdeal.KChain

end
-- ==== Proof.LibRowScatter.lean ====
/-
  ROW SCATTER-ADD AND ROW GATHER, READ AT AN INDEX.

  An operand is an array of n rows of b entries. A column of m integers names, for each of m update rows, the operand row
  it belongs to. The accumulating scatter adds every update row onto the operand row its integer names (an update whose
  integer names no row, being negative or at least n, is dropped); the gather reads, for each of the m integers, the
  operand row it names after clamping it into [0, n - 1].

  Both operations are defined through the general dimension-number arithmetic of the scatter and gather operations. Here
  that arithmetic is carried out once, for these dimension numbers and ARBITRARY extents n, m, b:

    * update entry (e, q) lands on operand entry (p, q') exactly when q = q' and the e-th integer, read signed, is p;
    * so entry (p, q) of the scatter's result is the operand's entry plus the sum, over the update rows e whose integer
      is p, of the update's entry (e, q);
    * entry (e, q) of the gather's result is the operand's entry (min(max(i, 0), n - 1), q), i the e-th integer.
-/
import Idealize.ShloMosaic.PureOps.Ideal
import Idealize.ShloMosaic.PureOps.Ideal.Laws
import Idealize.ShloMosaic.Lib.ValueIdx

open scoped BigOperators

namespace Cert.Lib

open Idealize.ShloMosaic Idealize.ShloMosaic.ValueIdx

/-! ## The landing index of an update, for any dimension numbers -/

/-- An update index lands on operand index i exactly when, on every operand axis, the signed start plus the window
    coordinate is i's coordinate: being in range on every axis is then automatic, since i is an index of the operand. -/
theorem resultIdx?_eq_some_iff {s si u : Shape} (d : ScatterDims s si u) {w : ℕ} (j : u.Idx) (idx : IVec si w) (i : s.Idx) :
    d.resultIdx? j idx = some i ↔ ∀ a, d.start j idx a + d.window j a = ((i a).val : ℤ) := by
  unfold ScatterDims.resultIdx?
  split
  · rename_i h
    rw [Option.some.injEq, funext_iff]
    refine forall_congr' fun a => ?_
    rw [Fin.ext_iff]
    have := (h a).1
    show (d.start j idx a + d.window j a).toNat = (i a).val ↔ _
    omega
  · rename_i h
    refine ⟨fun h' => (nomatch h'), fun h' => absurd (fun a => ?_) h⟩
    rw [h' a]
    exact ⟨Int.natCast_nonneg _, by exact_mod_cast (i a).isLt⟩

/-- An axis is among the kept axes of a shape exactly when it is not among the removed ones. -/
theorem mem_kept_iff {s : Shape} (axes : List (Fin s.rank)) (a : Fin s.rank) : a ∈ s.kept axes ↔ a ∉ axes := by
  simp [Shape.kept]

/-- Axis 1 of a rank-2 shape is not in the one-axis list [0]. -/
theorem one_not_mem_zero : (1 : Fin 2) ∉ ([0] : List (Fin 2)) := by decide

variable {n m b w : ℕ} {φ : FTy}

/-! ## Rows of updates added onto rows of an operand -/

/-- The dimension numbers of a scatter of the rows of an [m, b] update array onto rows of an [n, b] operand, the row
    chosen by a column [m, 1] of integers: the updates' axis 1 is the window axis, the operand's axis 0 is the inserted
    (scattered) axis, the one component of a scatter index goes to operand axis 0, and the index vector lies along
    axis 1 of the integers. -/
abbrev rowScatter (wf : ScatterDims.WF ⟨2, ![n, b]⟩ ⟨2, ![m, 1]⟩ ⟨2, ![m, b]⟩ [1] [0] [0] 1) :
    ScatterDims ⟨2, ![n, b]⟩ ⟨2, ![m, 1]⟩ ⟨2, ![m, b]⟩ := ⟨[1], [0], [0], 1, wf⟩

section Scatter
variable (wf : ScatterDims.WF ⟨2, ![n, b]⟩ ⟨2, ![m, 1]⟩ ⟨2, ![m, b]⟩ [1] [0] [0] 1)

/-- Update entry (e, q) reads its one start component at entry (e, 0) of the integers. -/
theorem rowScatter_siIdx (e : Fin m) (q : Fin b) (c : Fin (rowScatter wf).scatterDimsToOperandDims.length) :
    (rowScatter wf).siIdx (ix2 e q) c = ix2 e 0 := by
  funext a; refine Fin.ext ?_
  have hc : c.val = 0 := by have : c.val < 1 := c.isLt; omega
  match a with
  | ⟨0, _⟩ => rfl
  | ⟨1, _⟩ => exact hc

/-- On the scattered axis (operand axis 0) the start of update entry (e, q) is the e-th integer, read signed. -/
theorem rowScatter_start0 (idx : IVec ⟨2, ![m, 1]⟩ w) (e : Fin m) (q : Fin b) :
    (rowScatter wf).start (ix2 e q) idx 0 = (idx (ix2 e 0)).toInt := by
  unfold ScatterDims.start
  rw [dif_pos (show (0 : Fin 2) ∈ (rowScatter wf).scatterDimsToOperandDims from List.mem_singleton.mpr rfl),
    rowScatter_siIdx]

/-- On the window axis (operand axis 1) the start is 0: no scatter-index component goes there. -/
theorem rowScatter_start1 (idx : IVec ⟨2, ![m, 1]⟩ w) (e : Fin m) (q : Fin b) :
    (rowScatter wf).start (ix2 e q) idx 1 = 0 := by
  unfold ScatterDims.start
  rw [dif_neg (show (1 : Fin 2) ∉ (rowScatter wf).scatterDimsToOperandDims from one_not_mem_zero)]

/-- On the scattered axis the window coordinate is 0: that axis is inserted. -/
theorem rowScatter_window0 (e : Fin m) (q : Fin b) : (rowScatter wf).window (ix2 e q) 0 = 0 := by
  unfold ScatterDims.window
  rw [dif_neg (show (0 : Fin 2) ∉ (rowScatter wf).sKept from fun h => (mem_kept_iff _ _).mp h (List.mem_singleton.mpr rfl))]

/-- On the window axis the window coordinate of update entry (e, q) is q. -/
theorem rowScatter_window1 (e : Fin m) (q : Fin b) : (rowScatter wf).window (ix2 e q) 1 = q.val := by
  unfold ScatterDims.window
  rw [dif_pos (show (1 : Fin 2) ∈ (rowScatter wf).sKept from (mem_kept_iff _ _).mpr one_not_mem_zero)]
  rfl

/-- WHERE AN UPDATE ENTRY LANDS: update entry (e, q) lands on operand entry (p, q') exactly when it is in the same column,
    q = q', and the e-th integer, read signed, is the row number p. -/
theorem rowScatter_resultIdx (idx : IVec ⟨2, ![m, 1]⟩ w) (e : Fin m) (q : Fin b) (p : Fin n) (q' : Fin b) :
    (rowScatter wf).resultIdx? (ix2 e q) idx = some (ix2 p q') ↔ (q = q' ∧ (idx (ix2 e 0)).toInt = (p.val : ℤ)) := by
  rw [resultIdx?_eq_some_iff, Fin.forall_fin_two, rowScatter_start0, rowScatter_start1, rowScatter_window0,
    rowScatter_window1, Fin.ext_iff]
  show (idx (ix2 e 0)).toInt + ((0 : ℕ) : ℤ) = (p.val : ℤ) ∧ (0 : ℤ) + (q.val : ℤ) = (q'.val : ℤ) ↔ _
  omega

/-- THE ACCUMULATING ROW SCATTER READ AT (p, q), at the ideal values: the operand's entry plus the sum, over the update
    rows e whose integer (read signed) is p, of the update's entry (e, q). -/
theorem rowScatterAdd_apply (x : FVec Ideal ⟨2, ![n, b]⟩ φ) (idx : IVec ⟨2, ![m, 1]⟩ w) (upd : FVec Ideal ⟨2, ![m, b]⟩ φ)
    (p : Fin n) (q : Fin b) :
    Host.scatterAdd (rowScatter wf) x idx upd (ix2 p q)
      = x (ix2 p q) + ∑ e ∈ Finset.univ.filter (fun e : Fin m => (idx (ix2 e 0)).toInt = (p.val : ℤ)), upd (ix2 e q) := by
  show Ideal.hostScatterAdd (rowScatter wf) x idx upd (ix2 p q) = _
  unfold Ideal.hostScatterAdd
  congr 1
  rw [Finset.sum_filter, sum_idx2, Finset.sum_filter]
  refine Finset.sum_congr rfl fun e _ => ?_
  simp only [rowScatter_resultIdx]
  by_cases hT : (idx (ix2 e 0)).toInt = (p.val : ℤ)
  · simp [hT]
  · simp [hT]

end Scatter

/-! ## Rows of an operand gathered by a column of integers -/

/-- The dimension numbers of a gather of rows of an [n, b] operand by a column [m, 1] of integers into an [m, b] result:
    slices of one row (sizes [1, b]), the result's axis 1 the offset axis, the operand's axis 0 collapsed, the one
    component of a start index going to operand axis 0, the index vector along axis 1 of the integers, no batching. -/
abbrev rowGather (wf : GatherDims.WF ⟨2, ![n, b]⟩ ⟨2, ![m, 1]⟩ ⟨2, ![m, b]⟩ [1] [0] [] [0] [] 1 ![1, b]) :
    GatherDims ⟨2, ![n, b]⟩ ⟨2, ![m, 1]⟩ ⟨2, ![m, b]⟩ where
  offsetDims := [1]
  collapsedSliceDims := [0]
  operandBatchingDims := []
  startIndicesBatchingDims := []
  startIndexMap := [0]
  indexVectorDim := 1
  sliceSizes := ![1, b]
  wf := wf

section Gather
variable (wf : GatherDims.WF ⟨2, ![n, b]⟩ ⟨2, ![m, 1]⟩ ⟨2, ![m, b]⟩ [1] [0] [] [0] [] 1 ![1, b])

/-- Result entry (e, q) reads its one start component at entry (e, 0) of the integers. -/
theorem rowGather_siIdx (e : Fin m) (q : Fin b) (c : Fin (rowGather wf).startIndexMap.length) :
    (rowGather wf).siIdx (ix2 e q) c = ix2 e 0 := by
  funext a; refine Fin.ext ?_
  have hc : c.val = 0 := by have : c.val < 1 := c.isLt; omega
  match a with
  | ⟨0, _⟩ => rfl
  | ⟨1, _⟩ => exact hc

/-- On the collapsed axis (operand axis 0) the slice of result entry (e, q) starts at the e-th integer, read signed and
    clamped into [0, n - 1]. -/
theorem rowGather_start0 (idx : IVec ⟨2, ![m, 1]⟩ w) (e : Fin m) (q : Fin b) :
    (rowGather wf).start (ix2 e q) idx 0 = min (idx (ix2 e 0)).toInt.toNat (n - 1) := by
  unfold GatherDims.start
  rw [dif_pos (show (0 : Fin 2) ∈ (rowGather wf).startIndexMap from List.mem_singleton.mpr rfl), rowGather_siIdx]
  rfl

/-- On the offset axis (operand axis 1) the slice starts at 0: no start-index component goes there. -/
theorem rowGather_start1 (idx : IVec ⟨2, ![m, 1]⟩ w) (e : Fin m) (q : Fin b) :
    (rowGather wf).start (ix2 e q) idx 1 = 0 := by
  unfold GatherDims.start
  rw [dif_neg (show (1 : Fin 2) ∉ (rowGather wf).startIndexMap from one_not_mem_zero)]

/-- On the collapsed axis the offset coordinate is 0. -/
theorem rowGather_offCoord0 (e : Fin m) (q : Fin b) : (rowGather wf).offCoord (ix2 e q) 0 = 0 :=
  GatherDims.offCoord_eq_zero _ _ _ (fun h => ((GatherDims.mem_sKept _ _).mp h).1 (List.mem_singleton.mpr rfl))

/-- On the offset axis the offset coordinate of result entry (e, q) is q. -/
theorem rowGather_offCoord1 (e : Fin m) (q : Fin b) : (rowGather wf).offCoord (ix2 e q) 1 = q.val := by
  unfold GatherDims.offCoord
  rw [dif_pos (show (1 : Fin 2) ∈ (rowGather wf).sKept from
    (GatherDims.mem_sKept _ _).mpr ⟨one_not_mem_zero, List.not_mem_nil⟩)]
  rfl

end Gather

/-- THE ROW GATHER READ AT (e, q): the operand's entry in column q of the row named by the e-th integer, read signed and
    clamped into [0, n - 1]. -/
theorem rowGather_apply (hn : 0 < n)
    (wf : GatherDims.WF ⟨2, ![n, b]⟩ ⟨2, ![m, 1]⟩ ⟨2, ![m, b]⟩ [1] [0] [] [0] [] 1 ![1, b]) {α : Type}
    (x : (⟨2, ![n, b]⟩ : Shape).Idx → α) (idx : IVec ⟨2, ![m, 1]⟩ w) (e : Fin m) (q : Fin b) :
    Host.gather (rowGather wf) x idx (ix2 e q) = x (ix2 ⟨min (idx (ix2 e 0)).toInt.toNat (n - 1), by omega⟩ q) := by
  unfold Host.gather
  congr 1
  funext a
  refine Fin.ext ?_
  revert a
  refine Fin.forall_fin_two.mpr ⟨?_, ?_⟩
  · show (rowGather wf).start (ix2 e q) idx 0 + (rowGather wf).batchCoord (ix2 e q) 0
      + (rowGather wf).offCoord (ix2 e q) 0 = min (idx (ix2 e 0)).toInt.toNat (n - 1)
    rw [rowGather_start0, rowGather_offCoord0, GatherDims.batchCoord_eq_zero _ _ _ List.not_mem_nil]
    omega
  · show (rowGather wf).start (ix2 e q) idx 1 + (rowGather wf).batchCoord (ix2 e q) 1
      + (rowGather wf).offCoord (ix2 e q) 1 = q.val
    rw [rowGather_start1, rowGather_offCoord1, GatherDims.batchCoord_eq_zero _ _ _ List.not_mem_nil]
    omega

end Cert.Lib
-- ==== Proof.LibColScatter.lean ====
/-
  COLUMN SCATTER-ADD AND COLUMN GATHER, READ AT AN INDEX.

  An operand is an array of b rows of n entries: n columns of height b. A column of m integers names, for each of the m
  columns of an update array of b rows of m entries, the operand column it belongs to. The accumulating scatter adds
  every update column onto the operand column its integer names (an update whose integer names no column, being negative
  or at least n, is dropped); the gather reads, for each of the m integers, the operand column it names after clamping
  it into [0, n - 1].

  Both operations are defined through the general dimension-number arithmetic of the scatter and gather operations. Here
  that arithmetic is carried out once, for these dimension numbers and ARBITRARY extents n, m, b:

    * update entry (q, e) lands on operand entry (q', p) exactly when q = q' and the e-th integer, read signed, is p;
    * so entry (q, p) of the scatter's result is the operand's entry plus the sum, over the update columns e whose
      integer is p, of the update's entry (q, e);
    * entry (q, e) of the gather's result is the operand's entry (q, min(max(i, 0), n - 1)), i the e-th integer.

  This is the transpose of the row forms, where the integers name rows of an [n, b] operand.
-/
import Idealize.ShloMosaic.PureOps.Ideal
import Idealize.ShloMosaic.PureOps.Ideal.Laws
import Idealize.ShloMosaic.Lib.ValueIdx
import proofs.«126178_j13786845020472_2_alg».proof.Proof.LibRowScatter

open scoped BigOperators

namespace Cert.Lib

open Idealize.ShloMosaic Idealize.ShloMosaic.ValueIdx

/-- Axis 0 of a rank-2 shape is not in the one-axis list [1]. -/
theorem zero_not_mem_one : (0 : Fin 2) ∉ ([1] : List (Fin 2)) := by decide

variable {n m b w : ℕ} {φ : FTy}

/-! ## Columns of updates added onto columns of an operand -/

/-- The dimension numbers of a scatter of the columns of a [b, m] update array onto columns of a [b, n] operand, the
    column chosen by a column [m, 1] of integers: the updates' axis 0 is the window axis, the operand's axis 1 is the
    inserted (scattered) axis, the one component of a scatter index goes to operand axis 1, and the index vector lies
    along axis 1 of the integers. -/
abbrev colScatter (wf : ScatterDims.WF ⟨2, ![b, n]⟩ ⟨2, ![m, 1]⟩ ⟨2, ![b, m]⟩ [0] [1] [1] 1) :
    ScatterDims ⟨2, ![b, n]⟩ ⟨2, ![m, 1]⟩ ⟨2, ![b, m]⟩ := ⟨[0], [1], [1], 1, wf⟩

section Scatter
variable (wf : ScatterDims.WF ⟨2, ![b, n]⟩ ⟨2, ![m, 1]⟩ ⟨2, ![b, m]⟩ [0] [1] [1] 1)

/-- Update entry (q, e) reads its one start component at entry (e, 0) of the integers. -/
theorem colScatter_siIdx (q : Fin b) (e : Fin m) (c : Fin (colScatter wf).scatterDimsToOperandDims.length) :
    (colScatter wf).siIdx (ix2 q e) c = ix2 e 0 := by
  funext a; refine Fin.ext ?_
  have hc : c.val = 0 := by have : c.val < 1 := c.isLt; omega
  match a with
  | ⟨0, _⟩ => rfl
  | ⟨1, _⟩ => exact hc

/-- On the scattered axis (operand axis 1) the start of update entry (q, e) is the e-th integer, read signed. -/
theorem colScatter_start1 (idx : IVec ⟨2, ![m, 1]⟩ w) (q : Fin b) (e : Fin m) :
    (colScatter wf).start (ix2 q e) idx 1 = (idx (ix2 e 0)).toInt := by
  unfold ScatterDims.start
  rw [dif_pos (show (1 : Fin 2) ∈ (colScatter wf).scatterDimsToOperandDims from List.mem_singleton.mpr rfl),
    colScatter_siIdx]

/-- On the window axis (operand axis 0) the start is 0: no scatter-index component goes there. -/
theorem colScatter_start0 (idx : IVec ⟨2, ![m, 1]⟩ w) (q : Fin b) (e : Fin m) :
    (colScatter wf).start (ix2 q e) idx 0 = 0 := by
  unfold ScatterDims.start
  rw [dif_neg (show (0 : Fin 2) ∉ (colScatter wf).scatterDimsToOperandDims from zero_not_mem_one)]

/-- On the scattered axis the window coordinate is 0: that axis is inserted. -/
theorem colScatter_window1 (q : Fin b) (e : Fin m) : (colScatter wf).window (ix2 q e) 1 = 0 := by
  unfold ScatterDims.window
  rw [dif_neg (show (1 : Fin 2) ∉ (colScatter wf).sKept from fun h => (mem_kept_iff _ _).mp h (List.mem_singleton.mpr rfl))]

/-- On the window axis the window coordinate of update entry (q, e) is q. -/
theorem colScatter_window0 (q : Fin b) (e : Fin m) : (colScatter wf).window (ix2 q e) 0 = q.val := by
  unfold ScatterDims.window
  rw [dif_pos (show (0 : Fin 2) ∈ (colScatter wf).sKept from (mem_kept_iff _ _).mpr zero_not_mem_one)]
  rfl

/-- WHERE AN UPDATE ENTRY LANDS: update entry (q, e) lands on operand entry (q', p) exactly when it is in the same row,
    q = q', and the e-th integer, read signed, is the column number p. -/
theorem colScatter_resultIdx (idx : IVec ⟨2, ![m, 1]⟩ w) (q : Fin b) (e : Fin m) (q' : Fin b) (p : Fin n) :
    (colScatter wf).resultIdx? (ix2 q e) idx = some (ix2 q' p) ↔ (q = q' ∧ (idx (ix2 e 0)).toInt = (p.val : ℤ)) := by
  rw [resultIdx?_eq_some_iff, Fin.forall_fin_two, colScatter_start0, colScatter_start1, colScatter_window0,
    colScatter_window1, Fin.ext_iff]
  show (0 : ℤ) + (q.val : ℤ) = (q'.val : ℤ) ∧ (idx (ix2 e 0)).toInt + ((0 : ℕ) : ℤ) = (p.val : ℤ) ↔ _
  omega

/-- THE ACCUMULATING COLUMN SCATTER READ AT (q, p), at the ideal values: the operand's entry plus the sum, over the
    update columns e whose integer (read signed) is p, of the update's entry (q, e). -/
theorem colScatterAdd_apply (x : FVec Ideal ⟨2, ![b, n]⟩ φ) (idx : IVec ⟨2, ![m, 1]⟩ w) (upd : FVec Ideal ⟨2, ![b, m]⟩ φ)
    (q : Fin b) (p : Fin n) :
    Host.scatterAdd (colScatter wf) x idx upd (ix2 q p)
      = x (ix2 q p) + ∑ e ∈ Finset.univ.filter (fun e : Fin m => (idx (ix2 e 0)).toInt = (p.val : ℤ)), upd (ix2 q e) := by
  show Ideal.hostScatterAdd (colScatter wf) x idx upd (ix2 q p) = _
  unfold Ideal.hostScatterAdd
  congr 1
  rw [Finset.sum_filter, sum_idx2, Finset.sum_comm, Finset.sum_filter]
  refine Finset.sum_congr rfl fun e _ => ?_
  simp only [colScatter_resultIdx]
  by_cases hT : (idx (ix2 e 0)).toInt = (p.val : ℤ)
  · simp [hT]
  · simp [hT]

end Scatter

/-! ## Columns of an operand gathered by a column of integers -/

/-- The dimension numbers of a gather of columns of a [b, n] operand by a column [m, 1] of integers into a [b, m] result:
    slices of one column (sizes [b, 1]), the result's axis 0 the offset axis, the operand's axis 1 collapsed, the one
    component of a start index going to operand axis 1, the index vector along axis 1 of the integers, no batching. -/
abbrev colGather (wf : GatherDims.WF ⟨2, ![b, n]⟩ ⟨2, ![m, 1]⟩ ⟨2, ![b, m]⟩ [0] [1] [] [1] [] 1 ![b, 1]) :
    GatherDims ⟨2, ![b, n]⟩ ⟨2, ![m, 1]⟩ ⟨2, ![b, m]⟩ where
  offsetDims := [0]
  collapsedSliceDims := [1]
  operandBatchingDims := []
  startIndicesBatchingDims := []
  startIndexMap := [1]
  indexVectorDim := 1
  sliceSizes := ![b, 1]
  wf := wf

section Gather
variable (wf : GatherDims.WF ⟨2, ![b, n]⟩ ⟨2, ![m, 1]⟩ ⟨2, ![b, m]⟩ [0] [1] [] [1] [] 1 ![b, 1])

/-- Result entry (q, e) reads its one start component at entry (e, 0) of the integers. -/
theorem colGather_siIdx (q : Fin b) (e : Fin m) (c : Fin (colGather wf).startIndexMap.length) :
    (colGather wf).siIdx (ix2 q e) c = ix2 e 0 := by
  funext a; refine Fin.ext ?_
  have hc : c.val = 0 := by have : c.val < 1 := c.isLt; omega
  match a with
  | ⟨0, _⟩ => rfl
  | ⟨1, _⟩ => exact hc

/-- On the collapsed axis (operand axis 1) the slice of result entry (q, e) starts at the e-th integer, read signed and
    clamped into [0, n - 1]. -/
theorem colGather_start1 (idx : IVec ⟨2, ![m, 1]⟩ w) (q : Fin b) (e : Fin m) :
    (colGather wf).start (ix2 q e) idx 1 = min (idx (ix2 e 0)).toInt.toNat (n - 1) := by
  unfold GatherDims.start
  rw [dif_pos (show (1 : Fin 2) ∈ (colGather wf).startIndexMap from List.mem_singleton.mpr rfl), colGather_siIdx]
  rfl

/-- On the offset axis (operand axis 0) the slice starts at 0: no start-index component goes there. -/
theorem colGather_start0 (idx : IVec ⟨2, ![m, 1]⟩ w) (q : Fin b) (e : Fin m) :
    (colGather wf).start (ix2 q e) idx 0 = 0 := by
  unfold GatherDims.start
  rw [dif_neg (show (0 : Fin 2) ∉ (colGather wf).startIndexMap from zero_not_mem_one)]

/-- On the collapsed axis the offset coordinate is 0. -/
theorem colGather_offCoord1 (q : Fin b) (e : Fin m) : (colGather wf).offCoord (ix2 q e) 1 = 0 :=
  GatherDims.offCoord_eq_zero _ _ _ (fun h => ((GatherDims.mem_sKept _ _).mp h).1 (List.mem_singleton.mpr rfl))

/-- On the offset axis the offset coordinate of result entry (q, e) is q. -/
theorem colGather_offCoord0 (q : Fin b) (e : Fin m) : (colGather wf).offCoord (ix2 q e) 0 = q.val := by
  unfold GatherDims.offCoord
  rw [dif_pos (show (0 : Fin 2) ∈ (colGather wf).sKept from
    (GatherDims.mem_sKept _ _).mpr ⟨zero_not_mem_one, List.not_mem_nil⟩)]
  rfl

end Gather

/-- THE COLUMN GATHER READ AT (q, e): the operand's entry in row q of the column named by the e-th integer, read signed
    and clamped into [0, n - 1]. -/
theorem colGather_apply (hn : 0 < n)
    (wf : GatherDims.WF ⟨2, ![b, n]⟩ ⟨2, ![m, 1]⟩ ⟨2, ![b, m]⟩ [0] [1] [] [1] [] 1 ![b, 1]) {α : Type}
    (x : (⟨2, ![b, n]⟩ : Shape).Idx → α) (idx : IVec ⟨2, ![m, 1]⟩ w) (q : Fin b) (e : Fin m) :
    Host.gather (colGather wf) x idx (ix2 q e) = x (ix2 q ⟨min (idx (ix2 e 0)).toInt.toNat (n - 1), by omega⟩) := by
  unfold Host.gather
  congr 1
  funext a
  refine Fin.ext ?_
  revert a
  refine Fin.forall_fin_two.mpr ⟨?_, ?_⟩
  · show (colGather wf).start (ix2 q e) idx 0 + (colGather wf).batchCoord (ix2 q e) 0
      + (colGather wf).offCoord (ix2 q e) 0 = q.val
    rw [colGather_start0, colGather_offCoord0, GatherDims.batchCoord_eq_zero _ _ _ List.not_mem_nil]
    omega
  · show (colGather wf).start (ix2 q e) idx 1 + (colGather wf).batchCoord (ix2 q e) 1
      + (colGather wf).offCoord (ix2 q e) 1 = min (idx (ix2 e 0)).toInt.toNat (n - 1)
    rw [colGather_start1, colGather_offCoord1, GatherDims.batchCoord_eq_zero _ _ _ List.not_mem_nil]
    omega

end Cert.Lib
-- ==== Proof.LibColumnCast.lean ====
/-
  A vector made a column, read at an entry.

  Reshaping a vector of a entries to an [a, 1] matrix keeps the row-major order, so the matrix's entry (i, 0) is the
  vector's entry i. Generic in the extent and the element type.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.LibHostRowCol.lean ====
/-
  A host program's two ways of spreading a vector over a matrix, read at an entry.

  jnp's `v[None, :]` against a matrix prints as two `broadcast_in_dim`s: the vector `[n]` becomes the row `[1, n]` and
  the row is repeated to `[a, n]`; `v[:, None]` likewise makes the column `[a, 1]` and repeats it to `[a, n]`. Read at
  `(r, q)` the first is the vector at `q` and the second the vector at `r`. Generic in the extents and the element type.
-/
import Idealize.ShloMosaic.Lib.Pipeline.Value
import Idealize.ShloMosaic.Lib.ValueIdx

namespace Cert.Lib

open Idealize.ShloMosaic Idealize.ShloMosaic.ValueIdx

variable {α : Type}

/-- A vector made a row and repeated down the rows reads, at `(r, q)`, the vector at `q`. -/
theorem bcast_row_rows_apply {a n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![1, n]⟩ ![1] h1 v) (ix2 r q) = v (ix1 q) := by
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ =>
      show q.val = if n = 1 then 0 else q.val
      split
      · have := q.isLt; omega
      · rfl
  · match ax with
    | ⟨0, _⟩ =>
      show q.val = if n = 1 then 0 else q.val
      split
      · have := q.isLt; omega
      · rfl

/-- A vector made a column and repeated along the rows reads, at `(r, q)`, the vector at `r`. -/
theorem bcast_col_cols_apply {a n : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![a, 1]⟩ ![0] h1 v) (ix2 r q) = v (ix1 r) := by
  refine (broadcastInDim_apply _ h2 _ (ix2 r q) (ix2 r (0 : Fin 1)) fun ax => ?_).trans
    (broadcastInDim_apply _ h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

end Cert.Lib
-- ==== Proof.KEntry.lean ====
/-
  The kernel regions' input arrays read at an entry, in terms of the program's arguments.

  In the transposed layout an edge's gathered node features sit in a column: entry (k, e) of the gathered array is
  feature k of the node the e-th integer names (wrapped when negative, then clamped into the node range). The re-laid
  weights are transposes of row blocks of the argument matrices, so their entry (j, k) is the argument's entry
  (offset + k, j); a bias made a column reads the bias vector. The aggregation's entry (f, n) is the sum of the edge
  layer's entries (f, e) over the edges e whose wrapped source integer is n, divided by the count of those edges (one
  where there is none).
-/
import proofs.«126178_j13786845020472_2_alg».proof.Proof.KChain
import proofs.«126178_j13786845020472_2_alg».proof.Proof.LibColScatter
import proofs.«126178_j13786845020472_2_alg».proof.Proof.LibColumnCast
import proofs.«126178_j13786845020472_2_alg».proof.Proof.LibHostRowCol
import Idealize.ShloMosaic.PureOps.Ideal
import Idealize.ShloMosaic.Lib.ValueLayout
import Idealize.ShloMosaic.Lib.IdealHost
import Idealize.ShloMosaic.PureOps.Ideal.Laws

set_option maxRecDepth 16384

noncomputable section

namespace Cert.KernelIdeal.KEntry

open Cert.KernelIdeal Cert.KernelIdeal.Gen Cert.KernelIdeal.KFold Cert.KernelIdeal.KChain
open Idealize.ShloMosaic Idealize.ShloMosaic.TcCoe Idealize.SL.Sem Idealize.ShloMosaic.StableHlo Idealize.ShloMosaic.ValueIdx

/-- The node a column of integers names for edge e: the integer read signed, clamped into the node range. -/
def nodeOf (col : IVec S3200000x1 32) (e : Fin 3200000) : Fin 100000 :=
  ⟨min (col (ix2 e 0)).toInt.toNat (100000 - 1), by omega⟩

/-! ## Layout operations of this program read at an entry, for any operand -/

theorem gatherT_apply (x : FVec Ideal S100000x8 .f32) (col : IVec S3200000x1 32) (k : Fin 8) (e : Fin 3200000) :
    Host.gather gather_S8x100000_S3200000x1_S8x3200000_0_1_n_n_1_1_81 (xT x) col (ix2 k e) = x (ix2 (nodeOf col e) k) :=
  (Cert.Lib.colGather_apply (b := 8) (n := 100000) (m := 3200000) (by norm_num)
      gather_S8x100000_S3200000x1_S8x3200000_0_1_n_n_1_1_81_wf (xT x) col k e).trans
    (transpose_ix2_apply x transposes_S100000x8_S8x100000_1_0 k (nodeOf col e))

theorem sliceT_apply {r : ℕ} (o : ℕ) (x : (⟨2, ![r, 32]⟩ : Shape).Idx → EReal)
    (hs : (⟨2, ![r, 32]⟩ : Shape).Slices ![o, 0] ⟨2, ![8, 32]⟩)
    (ht : (⟨2, ![8, 32]⟩ : Shape).Transposes [1, 0] ⟨2, ![32, 8]⟩) (j : Fin 32) (k : Fin 8) (k' : Fin r) (hk : k'.val = o + k.val) :
    transpose ⟨2, ![32, 8]⟩ [1, 0] (extractStridedSlice ⟨2, ![8, 32]⟩ ![o, 0] x hs) ht (ix2 j k) = x (ix2 k' j) :=
  (transpose_ix2_apply _ ht j k).trans (slice2_axis0_apply o x hs k j k' hk)

variable (m : (ℓ : Loc nD τ sig) → Buf (Elt Ideal) ℓ) (ρ : Dev nD → PrngReg) (c : Dev nD)

/-! ## The first region's inputs -/

theorem v11_apply (k : Fin 8) (e : Fin 3200000) :
    V1 m ρ c main_v11 (ix2 k e) = (W0 m ρ c (Proc.devRef .tc main_arg0)) (ix2 (nodeOf (srcCol m ρ c) e) k) := by
  rw [V1_v11]; exact gatherT_apply _ _ k e
theorem v18_apply (k : Fin 8) (e : Fin 3200000) :
    V1 m ρ c main_v18 (ix2 k e) = (W0 m ρ c (Proc.devRef .tc main_arg0)) (ix2 (nodeOf (dstCol m ρ c) e) k) := by
  rw [V1_v18]; exact gatherT_apply _ _ k e
theorem v19_apply (k : Fin 8) (e : Fin 3200000) : V1 m ρ c main_v19 (ix2 k e) = (W0 m ρ c (Proc.devRef .tc main_arg2)) (ix2 e k) := by
  rw [V1_v19]; exact transpose_ix2_apply _ _ k e
theorem v21_apply (j : Fin 32) (k : Fin 8) : V1 m ρ c main_v21 (ix2 j k) = (W0 m ρ c (Proc.devRef .tc main_arg3)) (ix2 (⟨k.val, by omega⟩ : Fin 24) j) := by
  rw [V1_v21]; exact sliceT_apply 0 _ _ _ j k _ (by simp)
theorem v23_apply (j : Fin 32) (k : Fin 8) : V1 m ρ c main_v23 (ix2 j k) = (W0 m ρ c (Proc.devRef .tc main_arg3)) (ix2 (⟨8 + k.val, by omega⟩ : Fin 24) j) := by
  rw [V1_v23]; exact sliceT_apply 8 _ _ _ j k _ rfl
theorem v25_apply (j : Fin 32) (k : Fin 8) : V1 m ρ c main_v25 (ix2 j k) = (W0 m ρ c (Proc.devRef .tc main_arg3)) (ix2 (⟨16 + k.val, by omega⟩ : Fin 24) j) := by
  rw [V1_v25]; exact sliceT_apply 16 _ _ _ j k _ rfl
theorem v26_apply (f : Fin 8) (j : Fin 32) : V1 m ρ c main_v26 (ix2 f j) = (W0 m ρ c (Proc.devRef .tc main_arg5)) (ix2 j f) := by
  rw [V1_v26]; exact transpose_ix2_apply _ _ f j
theorem v27_apply (j : Fin 32) : V1 m ρ c main_v27 (ix2 j 0) = (W0 m ρ c (Proc.devRef .tc main_arg4)) (ix1 j) := by
  rw [V1_v27]; exact Cert.Lib.shapeCast_a_a1_apply _ _ j 0
theorem v28_apply (f : Fin 8) : V1 m ρ c main_v28 (ix2 f 0) = (W0 m ρ c (Proc.devRef .tc main_arg6)) (ix1 f) := by
  rw [V1_v28]; exact Cert.Lib.shapeCast_a_a1_apply _ _ f 0

/-! ## The second region's inputs -/

theorem v4_apply (k : Fin 8) (n : Fin 100000) : V3 m ρ c main_v4 (ix2 k n) = (W0 m ρ c (Proc.devRef .tc main_arg0)) (ix2 n k) := by
  rw [V3_v4]; exact transpose_ix2_apply _ _ k n
theorem v53_apply (j : Fin 32) (k : Fin 8) : V3 m ρ c main_v53 (ix2 j k) = (W0 m ρ c (Proc.devRef .tc main_arg7)) (ix2 (⟨k.val, by omega⟩ : Fin 16) j) := by
  rw [V3_v53]; exact sliceT_apply 0 _ _ _ j k _ (by simp)
theorem v55_apply (j : Fin 32) (k : Fin 8) : V3 m ρ c main_v55 (ix2 j k) = (W0 m ρ c (Proc.devRef .tc main_arg7)) (ix2 (⟨8 + k.val, by omega⟩ : Fin 16) j) := by
  rw [V3_v55]; exact sliceT_apply 8 _ _ _ j k _ rfl
theorem v56_apply (f : Fin 8) (j : Fin 32) : V3 m ρ c main_v56 (ix2 f j) = (W0 m ρ c (Proc.devRef .tc main_arg9)) (ix2 j f) := by
  rw [V3_v56]; exact transpose_ix2_apply _ _ f j
theorem v57_apply (j : Fin 32) : V3 m ρ c main_v57 (ix2 j 0) = (W0 m ρ c (Proc.devRef .tc main_arg8)) (ix1 j) := by
  rw [V3_v57]; exact Cert.Lib.shapeCast_a_a1_apply _ _ j 0
theorem v58_apply (f : Fin 8) : V3 m ρ c main_v58 (ix2 f 0) = (W0 m ρ c (Proc.devRef .tc main_arg10)) (ix1 f) := by
  rw [V3_v58]; exact Cert.Lib.shapeCast_a_a1_apply _ _ f 0

/-- The aggregation read at (f, n): the column sums of the edge layer's output over the edges whose integer is n, over
    the count. -/
theorem aggT_apply (col : IVec S3200000x1 32) (emb : FVec Ideal S8x3200000 .f32) (f : Fin 8) (n : Fin 100000) :
    aggT col emb (ix2 f n)
      = Ideal.div
          (broadcastInDim S8x100000 ![] bcast_S_S8x100000 (constant (F := Ideal) S_ .f32 0x00000000#32) (ix2 f n)
            + ∑ e ∈ Finset.univ.filter (fun e : Fin 3200000 => (col (ix2 e 0)).toInt = (n.val : ℤ)), emb (ix2 f e))
          (cntT col (ix1 n)) := by
  unfold aggT
  refine (hostDivf_apply _ _ (ix2 f n)).trans ?_
  exact congrArg₂ Ideal.div
    (Cert.Lib.colScatterAdd_apply (b := 8) (n := 100000) (m := 3200000) scatter_S8x100000_S3200000x1_S8x3200000_0_1_1_1_wf _ col emb f n)
    (Cert.Lib.bcast_row_rows_apply (a := 8) (n := 100000) (cntT col) _ _ f n)

theorem v51_apply (f : Fin 8) (n : Fin 100000) :
    V3 m ρ c main_v51 (ix2 f n)
      = Ideal.div
          (broadcastInDim S8x100000 ![] bcast_S_S8x100000 (constant (F := Ideal) S_ .f32 0x00000000#32) (ix2 f n)
            + ∑ e ∈ Finset.univ.filter (fun e : Fin 3200000 => ((srcCol m ρ c) (ix2 e 0)).toInt = (n.val : ℤ)), edgeArr m ρ c (ix2 f e))
          (cntT (srcCol m ρ c) (ix1 n)) := by
  rw [V3_v51]; exact aggT_apply _ _ f n

end Cert.KernelIdeal.KEntry

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.TileLayout.lean ====
/-
  Layout facts both tiles use.

  A column, an [a, 1] array, broadcast along the second axis to [a, b] reads at (p, c) the column's entry of row p.
-/
import Idealize.ShloMosaic.Lib.ValueLayout

noncomputable section

namespace Cert.KernelIdeal.TileLayout

open Idealize.ShloMosaic Idealize.ShloMosaic.ValueIdx

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero offsets of a whole-buffer access. -/
theorem off_zero : (![0, 0] : Fin 2 → Nat) = fun _ => 0 := funext fun a => by fin_cases a <;> rfl

end Cert.KernelIdeal.TileLayout

end
-- ==== Proof.EdgeTile.lean ====
/-
  The edge tile: the array the first kernel region leaves, as a closed form.

  The region applies a two-layer perceptron column by column. For a column e, the hidden layer is
  h(j) = max(∑ₖ A(j,k)·x(k,e) + ∑ₖ B(j,k)·y(k,e) + ∑ₖ C(j,k)·z(k,e) + b(j), 0) for j < 32, and the entry stored in
  row f is ∑ⱼ W(f,j)·h(j) + d(f): three [32,8]×[8,n] products added up, a bias column broadcast along the columns, a
  maximum with zero, one [8,32]×[32,n] product, and a second bias column. The region walks the 3,200,000 columns in 20
  blocks of 160,000; the three wide operands and the result move with the block, the small operands are whole at every
  block. Column e of the result is therefore that expression of column e of the wide operands.
-/
import proofs.«126178_j13786845020472_2_alg».proof.Proof.Gen.KernelIdeal.Frame
import proofs.«126178_j13786845020472_2_alg».proof.Proof.LibMatmul2
import proofs.«126178_j13786845020472_2_alg».proof.Proof.TileLayout
import Idealize.ShloMosaic.Lib.Pipeline.Value
import Idealize.ShloMosaic.Lib.ValueLayout

open scoped BigOperators

noncomputable section

namespace Cert.KernelIdeal.EdgeTile

open Idealize.ShloMosaic Idealize.ShloMosaic.ValueIdx Idealize.ShloMosaic.TcCoe Idealize.SL.Sem
open Idealize.ShloMosaic.Pipeline (Dat)
open Cert.KernelIdeal.TileLayout

/-! ## The stored block at an index -/

/-- The stored block at row `p` and block column `q`. -/
theorem pay_apply (v0 v5 v11 : Vec Ideal S32x8 .f32) (v2 v7 v13 : Vec Ideal S8x160000 .f32)
    (v17 : Vec Ideal S32x1 .f32) (v23 : Vec Ideal S8x32 .f32) (v26 : Vec Ideal S8x1 .f32)
    (p : Fin 8) (q : Fin 160000) :
    Gen.k0_pay1 (F := Ideal) v0 v2 v5 v7 v11 v13 v17 v23 v26 (ix2 p q)
      = (∑ j : Fin 32, v23 (ix2 p j) *
            max ((((∑ k : Fin 8, v0 (ix2 j k) * v2 (ix2 k q)) + ∑ k : Fin 8, v5 (ix2 j k) * v7 (ix2 k q))
                  + ∑ k : Fin 8, v11 (ix2 j k) * v13 (ix2 k q)) + v17 (ix2 j (0 : Fin 1)))
              (Ideal.ofBits .f32 0x00000000#32))
          + v26 (ix2 p (0 : Fin 1)) := by
  -- a [32,8] × [8,n] product into the zero accumulator, at (j, q)
  have hm : ∀ (l : FVec Ideal S32x8 .f32) (r : FVec Ideal S8x160000 .f32) (j : Fin 32),
      matmul (F := Ideal) (φ₁ := .f32) (φ₂ := .f32) dot_S32x8_S8x160000_S32x160000_1_0_0_1_n_n none l r
          (constant (F := Ideal) S32x160000 .f32 0x00000000#32) (ix2 j q)
        = ∑ k : Fin 8, l (ix2 j k) * r (ix2 k q) := fun l r j =>
    Cert.Lib.matmul2_zero_apply (φ₁ := .f32) (φ₂ := .f32) Facts₀.dot_S32x8_S8x160000_S32x160000_1_0_0_1_n_n_wf l r j q
  unfold Gen.k0_pay1
  simp only [shapeCast_self]
  rw [addf_apply, broadcastTo_a1_ab_apply]
  refine congrArg (· + v26 (ix2 p (0 : Fin 1))) ?_
  refine (Cert.Lib.matmul2_zero_apply (φ₁ := .f32) (φ₂ := .f32) Facts₀.dot_S8x32_S32x160000_S8x160000_1_0_0_1_n_n_wf v23 _ p q).trans ?_
  refine Finset.sum_congr rfl fun j _ => ?_
  refine congrArg (v23 (ix2 p j) * ·) ?_
  rw [maximumf_apply, addf_apply, addf_apply, addf_apply, broadcast_apply, broadcastTo_a1_ab_apply, hm, hm, hm]
  rfl

/-! ## What the body leaves, at an index, from whatever the windows hold -/

/-- The buffer the body leaves at row `p`, block column `q`: the stored block of the loaded windows. -/
theorem out_apply (x0 x1 x2 : Vec Ideal S8x160000 .f32) (x3 x4 x5 : Vec Ideal S32x8 .f32)
    (x6 : Vec Ideal S32x1 .f32) (x7 : Vec Ideal S8x32 .f32) (x8 : Vec Ideal S8x1 .f32)
    (p : Fin 8) (q : Fin 160000) :
    Gen.out0_9 (F := Ideal) x0 x1 x2 x3 x4 x5 x6 x7 x8 (ix2 p q)
      = (∑ j : Fin 32, x7 (ix2 p j) *
            max ((((∑ k : Fin 8, x3 (ix2 j k) * x0 (ix2 k q)) + ∑ k : Fin 8, x4 (ix2 j k) * x1 (ix2 k q))
                  + ∑ k : Fin 8, x5 (ix2 j k) * x2 (ix2 k q)) + x6 (ix2 j (0 : Fin 1)))
              (Ideal.ofBits .f32 0x00000000#32))
          + x8 (ix2 p (0 : Fin 1)) := by
  unfold Gen.out0_9
  rw [View.canon_unit_zero off_zero]
  simp only [View.ld_unit_zero (S := S8x160000) off_zero, View.ld_unit_zero (S := S32x8) off_zero,
    View.ld_unit_zero (S := S32x1) off_zero, View.ld_unit_zero (S := S8x32) off_zero, View.ld_unit_zero (S := S8x1) off_zero]
  exact pay_apply x3 x4 x5 x0 x1 x2 x6 x7 x8 p q

/-- The same with every window's entries named: the wide windows' column `q` is column `e` of `X0`, `X1`, `X2`,
    the small windows are `X3` … `X8`. -/
theorem out_apply_of (x0 x1 x2 : Vec Ideal S8x160000 .f32) (x3 x4 x5 : Vec Ideal S32x8 .f32)
    (x6 : Vec Ideal S32x1 .f32) (x7 : Vec Ideal S8x32 .f32) (x8 : Vec Ideal S8x1 .f32)
    (X0 X1 X2 : S8x3200000.Idx → EReal) (X3 X4 X5 : S32x8.Idx → EReal) (X6 : S32x1.Idx → EReal)
    (X7 : S8x32.Idx → EReal) (X8 : S8x1.Idx → EReal)
    (p : Fin 8) (q : Fin 160000) (e : Fin 3200000)
    (h0 : ∀ k : Fin 8, x0 (ix2 k q) = X0 (ix2 k e)) (h1 : ∀ k : Fin 8, x1 (ix2 k q) = X1 (ix2 k e))
    (h2 : ∀ k : Fin 8, x2 (ix2 k q) = X2 (ix2 k e))
    (h3 : ∀ (j : Fin 32) (k : Fin 8), x3 (ix2 j k) = X3 (ix2 j k))
    (h4 : ∀ (j : Fin 32) (k : Fin 8), x4 (ix2 j k) = X4 (ix2 j k))
    (h5 : ∀ (j : Fin 32) (k : Fin 8), x5 (ix2 j k) = X5 (ix2 j k))
    (h6 : ∀ j : Fin 32, x6 (ix2 j (0 : Fin 1)) = X6 (ix2 j (0 : Fin 1)))
    (h7 : ∀ j : Fin 32, x7 (ix2 p j) = X7 (ix2 p j))
    (h8 : x8 (ix2 p (0 : Fin 1)) = X8 (ix2 p (0 : Fin 1))) :
    Gen.out0_9 (F := Ideal) x0 x1 x2 x3 x4 x5 x6 x7 x8 (ix2 p q)
      = (∑ j : Fin 32, X7 (ix2 p j) *
            max ((((∑ k : Fin 8, X3 (ix2 j k) * X0 (ix2 k e)) + ∑ k : Fin 8, X4 (ix2 j k) * X1 (ix2 k e))
                  + ∑ k : Fin 8, X5 (ix2 j k) * X2 (ix2 k e)) + X6 (ix2 j (0 : Fin 1)))
              (Ideal.ofBits .f32 0x00000000#32))
          + X8 (ix2 p (0 : Fin 1)) := by
  rw [out_apply]
  simp only [h0, h1, h2, h3, h4, h5, h6, h7, h8]

/-! ## The closed form -/

/-- The perceptron's entry (f, e) over plain arrays: `A`, `B`, `C` the three first-layer matrices, `x`, `y`, `z` the three
    wide operands, `b` the hidden bias column, `W` the second-layer matrix, `d` the output bias column. -/
def mlp (A B C : S32x8.Idx → EReal) (x y z : S8x3200000.Idx → EReal) (b : S32x1.Idx → EReal)
    (W : S8x32.Idx → EReal) (d : S8x1.Idx → EReal) (f : Fin 8) (e : Fin 3200000) : EReal :=
  (∑ j : Fin 32, W (ix2 f j) *
      max ((((∑ k : Fin 8, A (ix2 j k) * x (ix2 k e)) + ∑ k : Fin 8, B (ix2 j k) * y (ix2 k e))
            + ∑ k : Fin 8, C (ix2 j k) * z (ix2 k e)) + b (ix2 j (0 : Fin 1)))
        (Ideal.ofBits .f32 0x00000000#32))
    + d (ix2 f (0 : Fin 1))

/-- The closed form, written out. -/
theorem mlp_def (A B C : S32x8.Idx → EReal) (x y z : S8x3200000.Idx → EReal) (b : S32x1.Idx → EReal)
    (W : S8x32.Idx → EReal) (d : S8x1.Idx → EReal) (f : Fin 8) (e : Fin 3200000) :
    mlp A B C x y z b W d f e
      = (∑ j : Fin 32, W (ix2 f j) *
            max ((((∑ k : Fin 8, A (ix2 j k) * x (ix2 k e)) + ∑ k : Fin 8, B (ix2 j k) * y (ix2 k e))
                  + ∑ k : Fin 8, C (ix2 j k) * z (ix2 k e)) + b (ix2 j (0 : Fin 1)))
              (Ideal.ofBits .f32 0x00000000#32))
          + d (ix2 f (0 : Fin 1)) := rfl

/-! ## The windows' blocks as entries of the arrays -/

section Region
variable (V : (c : Dev nD) → (b : Ref sig .tc) → Buf (Elt Ideal) ((c : Thread nD τ).loc b))

/-- The grid has 20 points. -/
theorem t_lt (t : Fin cfg0.N) : t.val < 20 :=
  lt_of_lt_of_eq t.isLt (show cfg0.N = 20 from Gen.N_0)

/-- Column `q` of block `t` is column `160000 t + q` of the array. -/
def col (t : Fin cfg0.N) (q : Fin 160000) : Fin 3200000 :=
  ⟨t.val * 160000 + q.val, by have := t_lt t; have := q.isLt; omega⟩

/-- The block indices of the windows that move with the grid: row block 0, column block `t`; the other windows stay at block (0, 0). -/
theorem idx_facts : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_9.index t (0 : Fin 2) = 0 ∧ win0_9.index t (1 : Fin 2) = t.val)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Window 0's block at point `t`, column `q`, is column `col t q` of its array. -/
theorem wide0 (c : Dev nD) (t : Fin cfg0.N) (k : Fin 8) (q : Fin 160000) :
    (Gen.iblk0 V c 0 t : Vec Ideal S8x160000 .f32) (ix2 k q) = (V c main_v11 : S8x3200000.Idx → EReal) (ix2 k (col t q)) := by
  obtain ⟨w0, w1, w2, -⟩ := idx_facts t
  obtain ⟨e0, e1⟩ := w0
  unfold Gen.iblk0
  rw [View.read_apply]
  show V c main_v11 _ = V c main_v11 _
  congr 1
  funext a
  apply Fin.ext
  match a with
  | ⟨0, _⟩ => show win0_0.index t (0 : Fin 2) * 8 + 1 * k.val = k.val; rw [e0]; omega
  | ⟨1, _⟩ => show win0_0.index t (1 : Fin 2) * 160000 + 1 * q.val = t.val * 160000 + q.val; rw [e1]; omega

/-- Window 1's block at point `t`, column `q`, is column `col t q` of its array. -/
theorem wide1 (c : Dev nD) (t : Fin cfg0.N) (k : Fin 8) (q : Fin 160000) :
    (Gen.iblk0 V c 1 t : Vec Ideal S8x160000 .f32) (ix2 k q) = (V c main_v18 : S8x3200000.Idx → EReal) (ix2 k (col t q)) := by
  obtain ⟨w0, w1, w2, -⟩ := idx_facts t
  obtain ⟨e0, e1⟩ := w1
  unfold Gen.iblk0
  rw [View.read_apply]
  show V c main_v18 _ = V c main_v18 _
  congr 1
  funext a
  apply Fin.ext
  match a with
  | ⟨0, _⟩ => show win0_1.index t (0 : Fin 2) * 8 + 1 * k.val = k.val; rw [e0]; omega
  | ⟨1, _⟩ => show win0_1.index t (1 : Fin 2) * 160000 + 1 * q.val = t.val * 160000 + q.val; rw [e1]; omega

/-- Window 2's block at point `t`, column `q`, is column `col t q` of its array. -/
theorem wide2 (c : Dev nD) (t : Fin cfg0.N) (k : Fin 8) (q : Fin 160000) :
    (Gen.iblk0 V c 2 t : Vec Ideal S8x160000 .f32) (ix2 k q) = (V c main_v19 : S8x3200000.Idx → EReal) (ix2 k (col t q)) := by
  obtain ⟨w0, w1, w2, -⟩ := idx_facts t
  obtain ⟨e0, e1⟩ := w2
  unfold Gen.iblk0
  rw [View.read_apply]
  show V c main_v19 _ = V c main_v19 _
  congr 1
  funext a
  apply Fin.ext
  match a with
  | ⟨0, _⟩ => show win0_2.index t (0 : Fin 2) * 8 + 1 * k.val = k.val; rw [e0]; omega
  | ⟨1, _⟩ => show win0_2.index t (1 : Fin 2) * 160000 + 1 * q.val = t.val * 160000 + q.val; rw [e1]; omega

/-- Window 3's block is its whole array at every point. -/
theorem small3 (c : Dev nD) (t : Fin cfg0.N) (p : Fin 32) (q : Fin 8) :
    (Gen.iblk0 V c 3 t : Vec Ideal S32x8 .f32) (ix2 p q) = (V c main_v21 : S32x8.Idx → EReal) (ix2 p q) := by
  obtain ⟨-, -, -, -, w3, w4, w5, w6, w7, w8⟩ := idx_facts t
  obtain ⟨e0, e1⟩ := w3
  unfold Gen.iblk0
  rw [View.read_apply]
  show V c main_v21 _ = V c main_v21 _
  congr 1
  funext a
  apply Fin.ext
  match a with
  | ⟨0, _⟩ => show win0_3.index t (0 : Fin 2) * 32 + 1 * p.val = p.val; rw [e0]; omega
  | ⟨1, _⟩ => show win0_3.index t (1 : Fin 2) * 8 + 1 * q.val = q.val; rw [e1]; omega

/-- Window 4's block is its whole array at every point. -/
theorem small4 (c : Dev nD) (t : Fin cfg0.N) (p : Fin 32) (q : Fin 8) :
    (Gen.iblk0 V c 4 t : Vec Ideal S32x8 .f32) (ix2 p q) = (V c main_v23 : S32x8.Idx → EReal) (ix2 p q) := by
  obtain ⟨-, -, -, -, w3, w4, w5, w6, w7, w8⟩ := idx_facts t
  obtain ⟨e0, e1⟩ := w4
  unfold Gen.iblk0
  rw [View.read_apply]
  show V c main_v23 _ = V c main_v23 _
  congr 1
  funext a
  apply Fin.ext
  match a with
  | ⟨0, _⟩ => show win0_4.index t (0 : Fin 2) * 32 + 1 * p.val = p.val; rw [e0]; omega
  | ⟨1, _⟩ => show win0_4.index t (1 : Fin 2) * 8 + 1 * q.val = q.val; rw [e1]; omega

/-- Window 5's block is its whole array at every point. -/
theorem small5 (c : Dev nD) (t : Fin cfg0.N) (p : Fin 32) (q : Fin 8) :
    (Gen.iblk0 V c 5 t : Vec Ideal S32x8 .f32) (ix2 p q) = (V c main_v25 : S32x8.Idx → EReal) (ix2 p q) := by
  obtain ⟨-, -, -, -, w3, w4, w5, w6, w7, w8⟩ := idx_facts t
  obtain ⟨e0, e1⟩ := w5
  unfold Gen.iblk0
  rw [View.read_apply]
  show V c main_v25 _ = V c main_v25 _
  congr 1
  funext a
  apply Fin.ext
  match a with
  | ⟨0, _⟩ => show win0_5.index t (0 : Fin 2) * 32 + 1 * p.val = p.val; rw [e0]; omega
  | ⟨1, _⟩ => show win0_5.index t (1 : Fin 2) * 8 + 1 * q.val = q.val; rw [e1]; omega

/-- Window 6's block is its whole array at every point. -/
theorem small6 (c : Dev nD) (t : Fin cfg0.N) (p : Fin 32) (q : Fin 1) :
    (Gen.iblk0 V c 6 t : Vec Ideal S32x1 .f32) (ix2 p q) = (V c main_v27 : S32x1.Idx → EReal) (ix2 p q) := by
  obtain ⟨-, -, -, -, w3, w4, w5, w6, w7, w8⟩ := idx_facts t
  obtain ⟨e0, e1⟩ := w6
  unfold Gen.iblk0
  rw [View.read_apply]
  show V c main_v27 _ = V c main_v27 _
  congr 1
  funext a
  apply Fin.ext
  match a with
  | ⟨0, _⟩ => show win0_6.index t (0 : Fin 2) * 32 + 1 * p.val = p.val; rw [e0]; omega
  | ⟨1, _⟩ => show win0_6.index t (1 : Fin 2) * 1 + 1 * q.val = q.val; rw [e1]; omega

/-- Window 7's block is its whole array at every point. -/
theorem small7 (c : Dev nD) (t : Fin cfg0.N) (p : Fin 8) (q : Fin 32) :
    (Gen.iblk0 V c 7 t : Vec Ideal S8x32 .f32) (ix2 p q) = (V c main_v26 : S8x32.Idx → EReal) (ix2 p q) := by
  obtain ⟨-, -, -, -, w3, w4, w5, w6, w7, w8⟩ := idx_facts t
  obtain ⟨e0, e1⟩ := w7
  unfold Gen.iblk0
  rw [View.read_apply]
  show V c main_v26 _ = V c main_v26 _
  congr 1
  funext a
  apply Fin.ext
  match a with
  | ⟨0, _⟩ => show win0_7.index t (0 : Fin 2) * 8 + 1 * p.val = p.val; rw [e0]; omega
  | ⟨1, _⟩ => show win0_7.index t (1 : Fin 2) * 32 + 1 * q.val = q.val; rw [e1]; omega

/-- Window 8's block is its whole array at every point. -/
theorem small8 (c : Dev nD) (t : Fin cfg0.N) (p : Fin 8) (q : Fin 1) :
    (Gen.iblk0 V c 8 t : Vec Ideal S8x1 .f32) (ix2 p q) = (V c main_v28 : S8x1.Idx → EReal) (ix2 p q) := by
  obtain ⟨-, -, -, -, w3, w4, w5, w6, w7, w8⟩ := idx_facts t
  obtain ⟨e0, e1⟩ := w8
  unfold Gen.iblk0
  rw [View.read_apply]
  show V c main_v28 _ = V c main_v28 _
  congr 1
  funext a
  apply Fin.ext
  match a with
  | ⟨0, _⟩ => show win0_8.index t (0 : Fin 2) * 8 + 1 * p.val = p.val; rw [e0]; omega
  | ⟨1, _⟩ => show win0_8.index t (1 : Fin 2) * 1 + 1 * q.val = q.val; rw [e1]; omega

/-- Row `p`, column `q` of the output's block at point `t` is row `p`, column `col t q` of its array. -/
theorem emb_out (t : Fin cfg0.N) (p : Fin 8) (q : Fin 160000) :
    ((cfg0.win 9).blk t).view.emb (ix2 p q) = (ix2 p (col t q) : S8x3200000.Idx) := by
  obtain ⟨-, -, -, ⟨e0, e1⟩, -⟩ := idx_facts t
  funext a
  apply Fin.ext
  match a with
  | ⟨0, _⟩ => show win0_9.index t (0 : Fin 2) * 8 + 1 * p.val = p.val; rw [e0]; omega
  | ⟨1, _⟩ => show win0_9.index t (1 : Fin 2) * 160000 + 1 * q.val = t.val * 160000 + q.val; rw [e1]; omega

/-- The result array, index by index. -/
abbrev G (c : Dev nD) : S8x3200000.Idx → EReal := fun i =>
  mlp (V c main_v21) (V c main_v23) (V c main_v25) (V c main_v11) (V c main_v18) (V c main_v19)
    (V c main_v27) (V c main_v26) (V c main_v28) (i 0) (i 1)

/-- What point `t` writes back is block `t` of `G`. -/
theorem flushed_eq (c : Dev nD) (t : Fin cfg0.N) :
    (Gen.dat0 (F := Ideal) V c).flushed 9 t = ((cfg0.win 9).blk t).view.read (Elt Ideal) (G V c) := by
  show (cfg0.win 9).cut (grid0.coords t) ((Gen.dat0 V c).after 9 t) = _
  rw [Gen.after0_9]
  funext y
  obtain ⟨p, q, rfl⟩ : ∃ (p : Fin 8) (q : Fin 160000), y = ix2 p q := ⟨y 0, y 1, eq_ix2 y⟩
  rw [View.read_apply, emb_out]
  show Gen.out0_9 (F := Ideal) (Gen.iblk0 V c 0 t) (Gen.iblk0 V c 1 t) (Gen.iblk0 V c 2 t) (Gen.iblk0 V c 3 t)
      (Gen.iblk0 V c 4 t) (Gen.iblk0 V c 5 t) (Gen.iblk0 V c 6 t) (Gen.iblk0 V c 7 t) (Gen.iblk0 V c 8 t) (ix2 p q)
    = mlp (V c main_v21) (V c main_v23) (V c main_v25) (V c main_v11) (V c main_v18) (V c main_v19)
        (V c main_v27) (V c main_v26) (V c main_v28) p (col t q)
  unfold mlp
  exact out_apply_of _ _ _ _ _ _ _ _ _ (V c main_v11) (V c main_v18) (V c main_v19) (V c main_v21) (V c main_v23)
    (V c main_v25) (V c main_v27) (V c main_v26) (V c main_v28) p q (col t q)
    (fun k => wide0 V c t k q) (fun k => wide1 V c t k q) (fun k => wide2 V c t k q)
    (fun j k => small3 V c t j k) (fun j k => small4 V c t j k) (fun j k => small5 V c t j k)
    (fun j => small6 V c t j 0) (fun j => small7 V c t p j) (small8 V c t p 0)

/-- An index of the array is in point `t`'s block iff each coordinate is in the block's range on its axis. -/
theorem mem_blk (t : Fin cfg0.N) (i : S8x3200000.Idx) :
    i ∈ ((cfg0.win 9).blk t).view.set ↔ ∀ a : Fin 2, win0_9.index t a * S8x160000.size a ≤ (i a).val
      ∧ (i a).val < win0_9.index t a * S8x160000.size a + S8x160000.size a := by
  show i ∈ ((View.whole main_v29).slice (win0_9.rect t)).set ↔ _
  rw [View.set_slice_whole, Rect.mem_set_unit]
  exact Iff.rfl

/-- Column `e` is in the block of point `e / 160000`: the blocks cover the array. -/
theorem cover (i : S8x3200000.Idx) :
    ∃ t : Fin cfg0.N, (cfg0.win 9).flush t = true ∧ i ∈ ((cfg0.win 9).blk t).view.set := by
  have hi0 : (i 0).val < 8 := (i 0).isLt
  have hi1 : (i 1).val < 3200000 := (i 1).isLt
  obtain ⟨t, ht⟩ : ∃ t : Fin cfg0.N, t.val = (i 1).val / 160000 :=
    ⟨⟨(i 1).val / 160000, lt_of_lt_of_eq (by omega : (i 1).val / 160000 < 20) (show 20 = cfg0.N from Gen.N_0.symm)⟩, rfl⟩
  obtain ⟨-, -, -, ⟨e0, e1⟩, -⟩ := idx_facts t
  refine ⟨t, Gen.flush0_9 t, ?_⟩
  rw [mem_blk]
  intro a
  match a with
  | ⟨0, _⟩ =>
    show win0_9.index t (0 : Fin 2) * 8 ≤ (i 0).val ∧ (i 0).val < win0_9.index t (0 : Fin 2) * 8 + 8
    rw [e0]; omega
  | ⟨1, _⟩ =>
    show win0_9.index t (1 : Fin 2) * 160000 ≤ (i 1).val ∧ (i 1).val < win0_9.index t (1 : Fin 2) * 160000 + 160000
    rw [e1, ht]; omega

/-- The array after the region is `G`. -/
theorem arr_eq (c : Dev nD) : (Gen.dat0 (F := Ideal) V c).arrAt 9 cfg0.N = G V c :=
  (Gen.dat0 V c).arrAt_eq_of_cover 9 (G V c) (fun t _ => flushed_eq V c t) cover

/-- The array after the region, entry by entry. -/
theorem arr_apply (c : Dev nD) (f : Fin 8) (e : Fin 3200000) :
    (Gen.dat0 (F := Ideal) V c).arrAt 9 cfg0.N (ix2 f e)
      = mlp (V c main_v21) (V c main_v23) (V c main_v25) (V c main_v11) (V c main_v18) (V c main_v19)
          (V c main_v27) (V c main_v26) (V c main_v28) f e := by
  rw [arr_eq]

end Region

end Cert.KernelIdeal.EdgeTile

end
-- ==== Proof.NodeTile.lean ====
/-
  The node tile: the array the second kernel region leaves, as a closed form.

  The region applies a two-layer perceptron column by column. For a column n, the hidden layer is
  h(j) = max(∑ₖ A(j,k)·x(k,n) + ∑ₖ B(j,k)·y(k,n) + b(j), 0) for j < 32, and the entry stored in row f is
  ∑ⱼ W(f,j)·h(j) + d(f): two [32,8]×[8,m] products added up, a bias column broadcast along the columns, a maximum with
  zero, one [8,32]×[32,m] product, and a second bias column. The region has one grid point and every operand is whole
  there, so column n of the result is that expression of column n of the two wide operands.
-/
import proofs.«126178_j13786845020472_2_alg».proof.Proof.Gen.KernelIdeal.Frame
import proofs.«126178_j13786845020472_2_alg».proof.Proof.LibMatmul2
import proofs.«126178_j13786845020472_2_alg».proof.Proof.TileLayout
import Idealize.ShloMosaic.Lib.Pipeline.Value
import Idealize.ShloMosaic.Lib.ValueLayout

open scoped BigOperators

noncomputable section

namespace Cert.KernelIdeal.NodeTile

open Idealize.ShloMosaic Idealize.ShloMosaic.ValueIdx Idealize.ShloMosaic.TcCoe Idealize.SL.Sem
open Idealize.ShloMosaic.Pipeline (Dat)
open Cert.KernelIdeal.TileLayout

/-! ## The stored block at an index -/

/-- The stored block at row `p` and column `q`. -/
theorem pay_apply (v0 v5 : Vec Ideal S32x8 .f32) (v2 v7 : Vec Ideal S8x100000 .f32)
    (v11 : Vec Ideal S32x1 .f32) (v17 : Vec Ideal S8x32 .f32) (v20 : Vec Ideal S8x1 .f32)
    (p : Fin 8) (q : Fin 100000) :
    Gen.k1_pay1 (F := Ideal) v0 v2 v5 v7 v11 v17 v20 (ix2 p q)
      = (∑ j : Fin 32, v17 (ix2 p j) *
            max (((∑ k : Fin 8, v0 (ix2 j k) * v2 (ix2 k q)) + ∑ k : Fin 8, v5 (ix2 j k) * v7 (ix2 k q))
                  + v11 (ix2 j (0 : Fin 1)))
              (Ideal.ofBits .f32 0x00000000#32))
          + v20 (ix2 p (0 : Fin 1)) := by
  -- a [32,8] × [8,m] product into the zero accumulator, at (j, q)
  have hm : ∀ (l : FVec Ideal S32x8 .f32) (r : FVec Ideal S8x100000 .f32) (j : Fin 32),
      matmul (F := Ideal) (φ₁ := .f32) (φ₂ := .f32) dot_S32x8_S8x100000_S32x100000_1_0_0_1_n_n none l r
          (constant (F := Ideal) S32x100000 .f32 0x00000000#32) (ix2 j q)
        = ∑ k : Fin 8, l (ix2 j k) * r (ix2 k q) := fun l r j =>
    Cert.Lib.matmul2_zero_apply (φ₁ := .f32) (φ₂ := .f32) Facts₀.dot_S32x8_S8x100000_S32x100000_1_0_0_1_n_n_wf l r j q
  unfold Gen.k1_pay1
  simp only [shapeCast_self]
  rw [addf_apply, broadcastTo_a1_ab_apply]
  refine congrArg (· + v20 (ix2 p (0 : Fin 1))) ?_
  refine (Cert.Lib.matmul2_zero_apply (φ₁ := .f32) (φ₂ := .f32) Facts₀.dot_S8x32_S32x100000_S8x100000_1_0_0_1_n_n_wf v17 _ p q).trans ?_
  refine Finset.sum_congr rfl fun j _ => ?_
  refine congrArg (v17 (ix2 p j) * ·) ?_
  rw [maximumf_apply, addf_apply, addf_apply, broadcast_apply, broadcastTo_a1_ab_apply, hm, hm]
  rfl

/-! ## What the body leaves, at an index, from whatever the windows hold -/

/-- The buffer the body leaves at row `p`, column `q`: the stored block of the loaded windows. -/
theorem out_apply (x0 x1 : Vec Ideal S8x100000 .f32) (x2 x3 : Vec Ideal S32x8 .f32)
    (x4 : Vec Ideal S32x1 .f32) (x5 : Vec Ideal S8x32 .f32) (x6 : Vec Ideal S8x1 .f32)
    (p : Fin 8) (q : Fin 100000) :
    Gen.out1_7 (F := Ideal) x0 x1 x2 x3 x4 x5 x6 (ix2 p q)
      = (∑ j : Fin 32, x5 (ix2 p j) *
            max (((∑ k : Fin 8, x2 (ix2 j k) * x0 (ix2 k q)) + ∑ k : Fin 8, x3 (ix2 j k) * x1 (ix2 k q))
                  + x4 (ix2 j (0 : Fin 1)))
              (Ideal.ofBits .f32 0x00000000#32))
          + x6 (ix2 p (0 : Fin 1)) := by
  unfold Gen.out1_7
  rw [View.canon_unit_zero off_zero]
  simp only [View.ld_unit_zero (S := S8x100000) off_zero, View.ld_unit_zero (S := S32x8) off_zero,
    View.ld_unit_zero (S := S32x1) off_zero, View.ld_unit_zero (S := S8x32) off_zero, View.ld_unit_zero (S := S8x1) off_zero]
  exact pay_apply x2 x3 x0 x1 x4 x5 x6 p q

/-- The same with every window's entries named `X0` … `X6`. -/
theorem out_apply_of (x0 x1 : Vec Ideal S8x100000 .f32) (x2 x3 : Vec Ideal S32x8 .f32)
    (x4 : Vec Ideal S32x1 .f32) (x5 : Vec Ideal S8x32 .f32) (x6 : Vec Ideal S8x1 .f32)
    (X0 X1 : S8x100000.Idx → EReal) (X2 X3 : S32x8.Idx → EReal) (X4 : S32x1.Idx → EReal)
    (X5 : S8x32.Idx → EReal) (X6 : S8x1.Idx → EReal)
    (p : Fin 8) (q : Fin 100000)
    (h0 : ∀ k : Fin 8, x0 (ix2 k q) = X0 (ix2 k q)) (h1 : ∀ k : Fin 8, x1 (ix2 k q) = X1 (ix2 k q))
    (h2 : ∀ (j : Fin 32) (k : Fin 8), x2 (ix2 j k) = X2 (ix2 j k))
    (h3 : ∀ (j : Fin 32) (k : Fin 8), x3 (ix2 j k) = X3 (ix2 j k))
    (h4 : ∀ j : Fin 32, x4 (ix2 j (0 : Fin 1)) = X4 (ix2 j (0 : Fin 1)))
    (h5 : ∀ j : Fin 32, x5 (ix2 p j) = X5 (ix2 p j))
    (h6 : x6 (ix2 p (0 : Fin 1)) = X6 (ix2 p (0 : Fin 1))) :
    Gen.out1_7 (F := Ideal) x0 x1 x2 x3 x4 x5 x6 (ix2 p q)
      = (∑ j : Fin 32, X5 (ix2 p j) *
            max (((∑ k : Fin 8, X2 (ix2 j k) * X0 (ix2 k q)) + ∑ k : Fin 8, X3 (ix2 j k) * X1 (ix2 k q))
                  + X4 (ix2 j (0 : Fin 1)))
              (Ideal.ofBits .f32 0x00000000#32))
          + X6 (ix2 p (0 : Fin 1)) := by
  rw [out_apply]
  simp only [h0, h1, h2, h3, h4, h5, h6]

/-! ## The closed form -/

/-- The perceptron's entry (f, n) over plain arrays: `A`, `B` the two first-layer matrices, `x`, `y` the two wide
    operands, `b` the hidden bias column, `W` the second-layer matrix, `d` the output bias column. -/
def mlp (A B : S32x8.Idx → EReal) (x y : S8x100000.Idx → EReal) (b : S32x1.Idx → EReal)
    (W : S8x32.Idx → EReal) (d : S8x1.Idx → EReal) (f : Fin 8) (n : Fin 100000) : EReal :=
  (∑ j : Fin 32, W (ix2 f j) *
      max (((∑ k : Fin 8, A (ix2 j k) * x (ix2 k n)) + ∑ k : Fin 8, B (ix2 j k) * y (ix2 k n))
            + b (ix2 j (0 : Fin 1)))
        (Ideal.ofBits .f32 0x00000000#32))
    + d (ix2 f (0 : Fin 1))

/-- The closed form, written out. -/
theorem mlp_def (A B : S32x8.Idx → EReal) (x y : S8x100000.Idx → EReal) (b : S32x1.Idx → EReal)
    (W : S8x32.Idx → EReal) (d : S8x1.Idx → EReal) (f : Fin 8) (n : Fin 100000) :
    mlp A B x y b W d f n
      = (∑ j : Fin 32, W (ix2 f j) *
            max (((∑ k : Fin 8, A (ix2 j k) * x (ix2 k n)) + ∑ k : Fin 8, B (ix2 j k) * y (ix2 k n))
                  + b (ix2 j (0 : Fin 1)))
              (Ideal.ofBits .f32 0x00000000#32))
          + d (ix2 f (0 : Fin 1)) := rfl

/-! ## The windows' blocks as entries of the arrays -/

section Region
variable (V : (c : Dev nD) → (b : Ref sig .tc) → Buf (Elt Ideal) ((c : Thread nD τ).loc b))

/-- Every window stays at block (0, 0) over the grid's one point. -/
theorem idx_facts : ∀ t : Fin cfg1.N,
    (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- Window 0's block is its whole array. -/
theorem blk0 (c : Dev nD) (t : Fin cfg1.N) (p : Fin 8) (q : Fin 100000) :
    (Gen.iblk1 V c 0 t : Vec Ideal S8x100000 .f32) (ix2 p q) = (V c main_v4 : S8x100000.Idx → EReal) (ix2 p q) := by
  obtain ⟨w0, w1, w2, w3, w4, w5, w6, -⟩ := idx_facts t
  obtain ⟨e0, e1⟩ := w0
  unfold Gen.iblk1
  rw [View.read_apply]
  show V c main_v4 _ = V c main_v4 _
  congr 1
  funext a
  apply Fin.ext
  match a with
  | ⟨0, _⟩ => show win1_0.index t (0 : Fin 2) * 8 + 1 * p.val = p.val; rw [e0]; omega
  | ⟨1, _⟩ => show win1_0.index t (1 : Fin 2) * 100000 + 1 * q.val = q.val; rw [e1]; omega

/-- Window 1's block is its whole array. -/
theorem blk1 (c : Dev nD) (t : Fin cfg1.N) (p : Fin 8) (q : Fin 100000) :
    (Gen.iblk1 V c 1 t : Vec Ideal S8x100000 .f32) (ix2 p q) = (V c main_v51 : S8x100000.Idx → EReal) (ix2 p q) := by
  obtain ⟨w0, w1, w2, w3, w4, w5, w6, -⟩ := idx_facts t
  obtain ⟨e0, e1⟩ := w1
  unfold Gen.iblk1
  rw [View.read_apply]
  show V c main_v51 _ = V c main_v51 _
  congr 1
  funext a
  apply Fin.ext
  match a with
  | ⟨0, _⟩ => show win1_1.index t (0 : Fin 2) * 8 + 1 * p.val = p.val; rw [e0]; omega
  | ⟨1, _⟩ => show win1_1.index t (1 : Fin 2) * 100000 + 1 * q.val = q.val; rw [e1]; omega

/-- Window 2's block is its whole array. -/
theorem blk2 (c : Dev nD) (t : Fin cfg1.N) (p : Fin 32) (q : Fin 8) :
    (Gen.iblk1 V c 2 t : Vec Ideal S32x8 .f32) (ix2 p q) = (V c main_v53 : S32x8.Idx → EReal) (ix2 p q) := by
  obtain ⟨w0, w1, w2, w3, w4, w5, w6, -⟩ := idx_facts t
  obtain ⟨e0, e1⟩ := w2
  unfold Gen.iblk1
  rw [View.read_apply]
  show V c main_v53 _ = V c main_v53 _
  congr 1
  funext a
  apply Fin.ext
  match a with
  | ⟨0, _⟩ => show win1_2.index t (0 : Fin 2) * 32 + 1 * p.val = p.val; rw [e0]; omega
  | ⟨1, _⟩ => show win1_2.index t (1 : Fin 2) * 8 + 1 * q.val = q.val; rw [e1]; omega

/-- Window 3's block is its whole array. -/
theorem blk3 (c : Dev nD) (t : Fin cfg1.N) (p : Fin 32) (q : Fin 8) :
    (Gen.iblk1 V c 3 t : Vec Ideal S32x8 .f32) (ix2 p q) = (V c main_v55 : S32x8.Idx → EReal) (ix2 p q) := by
  obtain ⟨w0, w1, w2, w3, w4, w5, w6, -⟩ := idx_facts t
  obtain ⟨e0, e1⟩ := w3
  unfold Gen.iblk1
  rw [View.read_apply]
  show V c main_v55 _ = V c main_v55 _
  congr 1
  funext a
  apply Fin.ext
  match a with
  | ⟨0, _⟩ => show win1_3.index t (0 : Fin 2) * 32 + 1 * p.val = p.val; rw [e0]; omega
  | ⟨1, _⟩ => show win1_3.index t (1 : Fin 2) * 8 + 1 * q.val = q.val; rw [e1]; omega

/-- Window 4's block is its whole array. -/
theorem blk4 (c : Dev nD) (t : Fin cfg1.N) (p : Fin 32) (q : Fin 1) :
    (Gen.iblk1 V c 4 t : Vec Ideal S32x1 .f32) (ix2 p q) = (V c main_v57 : S32x1.Idx → EReal) (ix2 p q) := by
  obtain ⟨w0, w1, w2, w3, w4, w5, w6, -⟩ := idx_facts t
  obtain ⟨e0, e1⟩ := w4
  unfold Gen.iblk1
  rw [View.read_apply]
  show V c main_v57 _ = V c main_v57 _
  congr 1
  funext a
  apply Fin.ext
  match a with
  | ⟨0, _⟩ => show win1_4.index t (0 : Fin 2) * 32 + 1 * p.val = p.val; rw [e0]; omega
  | ⟨1, _⟩ => show win1_4.index t (1 : Fin 2) * 1 + 1 * q.val = q.val; rw [e1]; omega

/-- Window 5's block is its whole array. -/
theorem blk5 (c : Dev nD) (t : Fin cfg1.N) (p : Fin 8) (q : Fin 32) :
    (Gen.iblk1 V c 5 t : Vec Ideal S8x32 .f32) (ix2 p q) = (V c main_v56 : S8x32.Idx → EReal) (ix2 p q) := by
  obtain ⟨w0, w1, w2, w3, w4, w5, w6, -⟩ := idx_facts t
  obtain ⟨e0, e1⟩ := w5
  unfold Gen.iblk1
  rw [View.read_apply]
  show V c main_v56 _ = V c main_v56 _
  congr 1
  funext a
  apply Fin.ext
  match a with
  | ⟨0, _⟩ => show win1_5.index t (0 : Fin 2) * 8 + 1 * p.val = p.val; rw [e0]; omega
  | ⟨1, _⟩ => show win1_5.index t (1 : Fin 2) * 32 + 1 * q.val = q.val; rw [e1]; omega

/-- Window 6's block is its whole array. -/
theorem blk6 (c : Dev nD) (t : Fin cfg1.N) (p : Fin 8) (q : Fin 1) :
    (Gen.iblk1 V c 6 t : Vec Ideal S8x1 .f32) (ix2 p q) = (V c main_v58 : S8x1.Idx → EReal) (ix2 p q) := by
  obtain ⟨w0, w1, w2, w3, w4, w5, w6, -⟩ := idx_facts t
  obtain ⟨e0, e1⟩ := w6
  unfold Gen.iblk1
  rw [View.read_apply]
  show V c main_v58 _ = V c main_v58 _
  congr 1
  funext a
  apply Fin.ext
  match a with
  | ⟨0, _⟩ => show win1_6.index t (0 : Fin 2) * 8 + 1 * p.val = p.val; rw [e0]; omega
  | ⟨1, _⟩ => show win1_6.index t (1 : Fin 2) * 1 + 1 * q.val = q.val; rw [e1]; omega

/-- The output's block is its whole array: row `p`, column `q` of the block is row `p`, column `q` of the array. -/
theorem emb_out (t : Fin cfg1.N) (p : Fin 8) (q : Fin 100000) :
    ((cfg1.win 7).blk t).view.emb (ix2 p q) = (ix2 p q : S8x100000.Idx) := by
  obtain ⟨-, -, -, -, -, -, -, e0, e1⟩ := idx_facts t
  funext a
  apply Fin.ext
  match a with
  | ⟨0, _⟩ => show win1_7.index t (0 : Fin 2) * 8 + 1 * p.val = p.val; rw [e0]; omega
  | ⟨1, _⟩ => show win1_7.index t (1 : Fin 2) * 100000 + 1 * q.val = q.val; rw [e1]; omega

/-- The result array, index by index. -/
abbrev G (c : Dev nD) : S8x100000.Idx → EReal := fun i =>
  mlp (V c main_v53) (V c main_v55) (V c main_v4) (V c main_v51) (V c main_v57) (V c main_v56) (V c main_v58) (i 0) (i 1)

/-- What the one point writes back is its block of `G`. -/
theorem flushed_eq (c : Dev nD) (t : Fin cfg1.N) :
    (Gen.dat1 (F := Ideal) V c).flushed 7 t = ((cfg1.win 7).blk t).view.read (Elt Ideal) (G V c) := by
  show (cfg1.win 7).cut (grid1.coords t) ((Gen.dat1 V c).after 7 t) = _
  rw [Gen.after1_7]
  funext y
  obtain ⟨p, q, rfl⟩ : ∃ (p : Fin 8) (q : Fin 100000), y = ix2 p q := ⟨y 0, y 1, eq_ix2 y⟩
  rw [View.read_apply, emb_out]
  show Gen.out1_7 (F := Ideal) (Gen.iblk1 V c 0 t) (Gen.iblk1 V c 1 t) (Gen.iblk1 V c 2 t) (Gen.iblk1 V c 3 t)
      (Gen.iblk1 V c 4 t) (Gen.iblk1 V c 5 t) (Gen.iblk1 V c 6 t) (ix2 p q)
    = mlp (V c main_v53) (V c main_v55) (V c main_v4) (V c main_v51) (V c main_v57) (V c main_v56) (V c main_v58) p q
  unfold mlp
  exact out_apply_of _ _ _ _ _ _ _ (V c main_v4) (V c main_v51) (V c main_v53) (V c main_v55)
    (V c main_v57) (V c main_v56) (V c main_v58) p q
    (fun k => blk0 V c t k q) (fun k => blk1 V c t k q)
    (fun j k => blk2 V c t j k) (fun j k => blk3 V c t j k)
    (fun j => blk4 V c t j 0) (fun j => blk5 V c t p j) (blk6 V c t p 0)

/-- An index of the array is in point `t`'s block iff each coordinate is in the block's range on its axis. -/
theorem mem_blk (t : Fin cfg1.N) (i : S8x100000.Idx) :
    i ∈ ((cfg1.win 7).blk t).view.set ↔ ∀ a : Fin 2, win1_7.index t a * S8x100000.size a ≤ (i a).val
      ∧ (i a).val < win1_7.index t a * S8x100000.size a + S8x100000.size a := by
  show i ∈ ((View.whole main_v59).slice (win1_7.rect t)).set ↔ _
  rw [View.set_slice_whole, Rect.mem_set_unit]
  exact Iff.rfl

/-- The one point's block is the whole array. -/
theorem cover (i : S8x100000.Idx) :
    ∃ t : Fin cfg1.N, (cfg1.win 7).flush t = true ∧ i ∈ ((cfg1.win 7).blk t).view.set := by
  have hi0 : (i 0).val < 8 := (i 0).isLt
  have hi1 : (i 1).val < 100000 := (i 1).isLt
  obtain ⟨t, -⟩ : ∃ t : Fin cfg1.N, t.val = 0 :=
    ⟨⟨0, lt_of_lt_of_eq Nat.zero_lt_one (show 1 = cfg1.N from Gen.N_1.symm)⟩, rfl⟩
  obtain ⟨-, -, -, -, -, -, -, e0, e1⟩ := idx_facts t
  refine ⟨t, Gen.flush1_7 t, ?_⟩
  rw [mem_blk]
  intro a
  match a with
  | ⟨0, _⟩ =>
    show win1_7.index t (0 : Fin 2) * 8 ≤ (i 0).val ∧ (i 0).val < win1_7.index t (0 : Fin 2) * 8 + 8
    rw [e0]; omega
  | ⟨1, _⟩ =>
    show win1_7.index t (1 : Fin 2) * 100000 ≤ (i 1).val ∧ (i 1).val < win1_7.index t (1 : Fin 2) * 100000 + 100000
    rw [e1]; omega

/-- The array after the region is `G`. -/
theorem arr_eq (c : Dev nD) : (Gen.dat1 (F := Ideal) V c).arrAt 7 cfg1.N = G V c :=
  (Gen.dat1 V c).arrAt_eq_of_cover 7 (G V c) (fun t _ => flushed_eq V c t) cover

/-- The array after the region, entry by entry. -/
theorem arr_apply (c : Dev nD) (f : Fin 8) (n : Fin 100000) :
    (Gen.dat1 (F := Ideal) V c).arrAt 7 cfg1.N (ix2 f n)
      = mlp (V c main_v53) (V c main_v55) (V c main_v4) (V c main_v51) (V c main_v57) (V c main_v56) (V c main_v58) f n := by
  rw [arr_eq]

end Region

end Cert.KernelIdeal.NodeTile

end
-- ==== Proof.RefStages.lean ====
/-
  THE REFERENCE PROGRAM'S THREE STAGES, READ AT AN ENTRY.

  The reference is a message-passing layer over a graph of 100000 nodes (8 features each) and 3200000 edges (8 features
  each, two integers each: the edge's two end nodes).

    * EDGE STAGE. For edge e the rows of its two end nodes are gathered (each integer is wrapped if negative and clamped
      into [0, 99999]) and joined with the edge's own row into 24 columns; a 24 x 32 matrix, a bias, the maximum with
      zero, a 32 x 8 matrix and a bias follow. Entry (e, f) is therefore a sum over the 32 hidden columns j of
      max(h(e, j), 0) * W2(j, f), plus b2(f), where h(e, j) is the sum of three blocks of 8 products (source node's row,
      destination node's row, edge's row, against rows 0-7, 8-15, 16-23 of the first matrix) plus b1(j).
    * AGGREGATION STAGE. Entry (n, f) is the sum of the edge stage's entries (e, f) over the edges e whose first integer,
      read signed and not wrapped, is n (added onto the zero array), divided by the clamped count of node n.
    * NODE STAGE. The node's own row is joined with its aggregate into 16 columns; a 16 x 32 matrix, a bias, the maximum
      with zero, a 32 x 8 matrix and a bias follow: the same shape of expression with two blocks of 8 products.

  Only associativity of the sums over the joined columns is used (a sum over 24 or 16 columns is split into its blocks
  of 8); nothing is assumed finite.
-/
import proofs.«126178_j13786845020472_2_alg».proof.Proof.Gen.ReferenceIdeal.Read
import proofs.«126178_j13786845020472_2_alg».proof.Proof.LibRowScatter

noncomputable section

namespace Cert.ReferenceIdeal.RefStages

open Cert.ReferenceIdeal Cert.ReferenceIdeal.Gen Idealize.ShloMosaic Idealize.ShloMosaic.TcCoe Idealize.SL.Sem Idealize.ShloMosaic.StableHlo Idealize.ShloMosaic.ValueIdx
open scoped BigOperators

/-! ## Sums over the joined columns, block by block -/

/-- A sum over 24 columns is the sum of its three blocks of 8 columns. -/
theorem sum_fin24 {M : Type*} [AddCommMonoid M] (g : Fin 24 → M) :
    ∑ c : Fin 24, g c
      = (∑ k : Fin 8, g ⟨k.val, by omega⟩ + ∑ k : Fin 8, g ⟨8 + k.val, by omega⟩) + ∑ k : Fin 8, g ⟨16 + k.val, by omega⟩ := by
  have h1 := Fin.sum_univ_add (M := M) (a := 16) (b := 8) g
  have h2 := Fin.sum_univ_add (M := M) (a := 8) (b := 8) (fun c => g (Fin.castAdd 8 c))
  exact h1.trans (congrArg (· + _) h2)

/-- A sum over 16 columns is the sum of its two blocks of 8 columns. -/
theorem sum_fin16 {M : Type*} [AddCommMonoid M] (g : Fin 16 → M) :
    ∑ c : Fin 16, g c = ∑ k : Fin 8, g ⟨k.val, by omega⟩ + ∑ k : Fin 8, g ⟨8 + k.val, by omega⟩ :=
  Fin.sum_univ_add (M := M) (a := 8) (b := 8) g

/-! ## Arrays joined along their columns, read at an entry -/

section Concat
variable {α : Type} {E : ℕ}

/-- Three arrays of 8 columns joined into 24 columns: a column of the first block reads the first array. -/
theorem concat3_apply_0 (a b c : (⟨2, ![E, 8]⟩ : Shape).Idx → α)
    (h : Shape.Concatenates [(⟨2, ![E, 8]⟩ : Shape), ⟨2, ![E, 8]⟩, ⟨2, ![E, 8]⟩] ⟨2, ![E, 24]⟩ 1) (e : Fin E) (k : Fin 8) :
    concatenate ⟨2, ![E, 24]⟩ 1 [⟨⟨2, ![E, 8]⟩, a⟩, ⟨⟨2, ![E, 8]⟩, b⟩, ⟨⟨2, ![E, 8]⟩, c⟩] h (ix2 e (⟨k.val, by omega⟩ : Fin 24))
      = a (ix2 e k) := by
  refine concatenate_apply_piece 1 [⟨⟨2, ![E, 8]⟩, a⟩, ⟨⟨2, ![E, 8]⟩, b⟩, ⟨⟨2, ![E, 8]⟩, c⟩] h _ 0 (by simp) _ a rfl rfl 0 rfl (ix2 e k) (fun ax hax => ?_) ?_
  · match ax with
    | ⟨0, _⟩ => rfl
    | ⟨1, _⟩ => exact absurd rfl hax
  · show 0 + k.val = k.val
    omega

/-- A column of the second block reads the second array. -/
theorem concat3_apply_1 (a b c : (⟨2, ![E, 8]⟩ : Shape).Idx → α)
    (h : Shape.Concatenates [(⟨2, ![E, 8]⟩ : Shape), ⟨2, ![E, 8]⟩, ⟨2, ![E, 8]⟩] ⟨2, ![E, 24]⟩ 1) (e : Fin E) (k : Fin 8) :
    concatenate ⟨2, ![E, 24]⟩ 1 [⟨⟨2, ![E, 8]⟩, a⟩, ⟨⟨2, ![E, 8]⟩, b⟩, ⟨⟨2, ![E, 8]⟩, c⟩] h (ix2 e (⟨8 + k.val, by omega⟩ : Fin 24))
      = b (ix2 e k) := by
  refine concatenate_apply_piece 1 [⟨⟨2, ![E, 8]⟩, a⟩, ⟨⟨2, ![E, 8]⟩, b⟩, ⟨⟨2, ![E, 8]⟩, c⟩] h _ 1 (by simp) _ b rfl rfl 8 rfl (ix2 e k) (fun ax hax => ?_) ?_
  · match ax with
    | ⟨0, _⟩ => rfl
    | ⟨1, _⟩ => exact absurd rfl hax
  · rfl

/-- A column of the third block reads the third array. -/
theorem concat3_apply_2 (a b c : (⟨2, ![E, 8]⟩ : Shape).Idx → α)
    (h : Shape.Concatenates [(⟨2, ![E, 8]⟩ : Shape), ⟨2, ![E, 8]⟩, ⟨2, ![E, 8]⟩] ⟨2, ![E, 24]⟩ 1) (e : Fin E) (k : Fin 8) :
    concatenate ⟨2, ![E, 24]⟩ 1 [⟨⟨2, ![E, 8]⟩, a⟩, ⟨⟨2, ![E, 8]⟩, b⟩, ⟨⟨2, ![E, 8]⟩, c⟩] h (ix2 e (⟨16 + k.val, by omega⟩ : Fin 24))
      = c (ix2 e k) := by
  refine concatenate_apply_piece 1 [⟨⟨2, ![E, 8]⟩, a⟩, ⟨⟨2, ![E, 8]⟩, b⟩, ⟨⟨2, ![E, 8]⟩, c⟩] h _ 2 (by simp) _ c rfl rfl 16 rfl (ix2 e k) (fun ax hax => ?_) ?_
  · match ax with
    | ⟨0, _⟩ => rfl
    | ⟨1, _⟩ => exact absurd rfl hax
  · rfl

/-- Two arrays of 8 columns joined into 16 columns: a column of the first block reads the first array. -/
theorem concat2_apply_0 (a b : (⟨2, ![E, 8]⟩ : Shape).Idx → α)
    (h : Shape.Concatenates [(⟨2, ![E, 8]⟩ : Shape), ⟨2, ![E, 8]⟩] ⟨2, ![E, 16]⟩ 1) (e : Fin E) (k : Fin 8) :
    concatenate ⟨2, ![E, 16]⟩ 1 [⟨⟨2, ![E, 8]⟩, a⟩, ⟨⟨2, ![E, 8]⟩, b⟩] h (ix2 e (⟨k.val, by omega⟩ : Fin 16))
      = a (ix2 e k) := by
  refine concatenate_apply_piece 1 [⟨⟨2, ![E, 8]⟩, a⟩, ⟨⟨2, ![E, 8]⟩, b⟩] h _ 0 (by simp) _ a rfl rfl 0 rfl (ix2 e k) (fun ax hax => ?_) ?_
  · match ax with
    | ⟨0, _⟩ => rfl
    | ⟨1, _⟩ => exact absurd rfl hax
  · show 0 + k.val = k.val
    omega

/-- A column of the second block reads the second array. -/
theorem concat2_apply_1 (a b : (⟨2, ![E, 8]⟩ : Shape).Idx → α)
    (h : Shape.Concatenates [(⟨2, ![E, 8]⟩ : Shape), ⟨2, ![E, 8]⟩] ⟨2, ![E, 16]⟩ 1) (e : Fin E) (k : Fin 8) :
    concatenate ⟨2, ![E, 16]⟩ 1 [⟨⟨2, ![E, 8]⟩, a⟩, ⟨⟨2, ![E, 8]⟩, b⟩] h (ix2 e (⟨8 + k.val, by omega⟩ : Fin 16))
      = b (ix2 e k) := by
  refine concatenate_apply_piece 1 [⟨⟨2, ![E, 8]⟩, a⟩, ⟨⟨2, ![E, 8]⟩, b⟩] h _ 1 (by simp) _ b rfl rfl 8 rfl (ix2 e k) (fun ax hax => ?_) ?_
  · match ax with
    | ⟨0, _⟩ => rfl
    | ⟨1, _⟩ => exact absurd rfl hax
  · rfl

end Concat

/-- The word of all zero bits denotes the extended real 0. -/
theorem word_zero : Ideal.ofBits .f32 0x00000000#32 = 0 := Ideal.ofBits_zero_f32

variable (x0 : (⟨S100000x8, .f32⟩ : BufTy).Contents (Elt Ideal)) (x1 : (⟨S2x3200000, .i32⟩ : BufTy).Contents (Elt Ideal))
  (x2 : (⟨S3200000x8, .f32⟩ : BufTy).Contents (Elt Ideal)) (x3 : (⟨S24x32, .f32⟩ : BufTy).Contents (Elt Ideal))
  (x4 : (⟨S32, .f32⟩ : BufTy).Contents (Elt Ideal)) (x5 : (⟨S32x8, .f32⟩ : BufTy).Contents (Elt Ideal))
  (x6 : (⟨S8, .f32⟩ : BufTy).Contents (Elt Ideal)) (x7 : (⟨S16x32, .f32⟩ : BufTy).Contents (Elt Ideal))
  (x8 : (⟨S32, .f32⟩ : BufTy).Contents (Elt Ideal)) (x9 : (⟨S32x8, .f32⟩ : BufTy).Contents (Elt Ideal))
  (x10 : (⟨S8, .f32⟩ : BufTy).Contents (Elt Ideal))

/-! ## The two gathers -/

/-- The node whose row the first gather reads for edge e: the edge's first integer after the wrap of negative
    values, read signed and clamped into [0, 99999]. -/
def srcNode (e : Fin 3200000) : Fin 100000 :=
  ⟨min ((Read.val_main_v9 (F := Ideal) x1) (ix2 e 0)).toInt.toNat 99999, by omega⟩

/-- The node whose row the second gather reads for edge e: the same of the edge's second integer. -/
def dstNode (e : Fin 3200000) : Fin 100000 :=
  ⟨min ((Read.val_main_v16 (F := Ideal) x1) (ix2 e 0)).toInt.toNat 99999, by omega⟩

/-- The first gather at (e, k): row srcNode e of the node array. -/
theorem v10_apply (e : Fin 3200000) (k : Fin 8) :
    Read.val_main_v10 (F := Ideal) x0 x1 (ix2 e k) = x0 (ix2 (srcNode x1 e) k) :=
  Cert.Lib.rowGather_apply (n := 100000) (m := 3200000) (b := 8) (by decide)
    gather_S100000x8_S3200000x1_S3200000x8_1_0_n_n_0_1_18.wf x0 (Read.val_main_v9 (F := Ideal) x1) e k

/-- The second gather at (e, k): row dstNode e of the node array. -/
theorem v17_apply (e : Fin 3200000) (k : Fin 8) :
    Read.val_main_v17 (F := Ideal) x0 x1 (ix2 e k) = x0 (ix2 (dstNode x1 e) k) :=
  Cert.Lib.rowGather_apply (n := 100000) (m := 3200000) (b := 8) (by decide)
    gather_S100000x8_S3200000x1_S3200000x8_1_0_n_n_0_1_18.wf x0 (Read.val_main_v16 (F := Ideal) x1) e k

/-! ## The edge stage -/

/-- The 24 joined columns at edge e: the source node's row, the destination node's row, the edge's own row. -/
theorem v18_apply_0 (e : Fin 3200000) (k : Fin 8) :
    Read.val_main_v18 (F := Ideal) x0 x1 x2 (ix2 e (⟨k.val, by omega⟩ : Fin 24)) = x0 (ix2 (srcNode x1 e) k) :=
  (concat3_apply_0 _ _ _ _ e k).trans (v10_apply x0 x1 e k)

theorem v18_apply_1 (e : Fin 3200000) (k : Fin 8) :
    Read.val_main_v18 (F := Ideal) x0 x1 x2 (ix2 e (⟨8 + k.val, by omega⟩ : Fin 24)) = x0 (ix2 (dstNode x1 e) k) :=
  (concat3_apply_1 _ _ _ _ e k).trans (v17_apply x0 x1 e k)

theorem v18_apply_2 (e : Fin 3200000) (k : Fin 8) :
    Read.val_main_v18 (F := Ideal) x0 x1 x2 (ix2 e (⟨16 + k.val, by omega⟩ : Fin 24)) = x2 (ix2 e k) :=
  concat3_apply_2 _ _ _ _ e k

/-- The first product of the edge stage at (e, j): the three blocks of the contraction. -/
theorem v19_apply (e : Fin 3200000) (j : Fin 32) :
    Read.val_main_v19 (F := Ideal) x0 x1 x2 x3 (ix2 e j)
      = (∑ k : Fin 8, x0 (ix2 (srcNode x1 e) k) * x3 (ix2 (⟨k.val, by omega⟩ : Fin 24) j)
          + ∑ k : Fin 8, x0 (ix2 (dstNode x1 e) k) * x3 (ix2 (⟨8 + k.val, by omega⟩ : Fin 24) j))
        + ∑ k : Fin 8, x2 (ix2 e k) * x3 (ix2 (⟨16 + k.val, by omega⟩ : Fin 24) j) := by
  have hl : ∀ c : Fin 24, Read.lidx_main_v19 (ix2 e j) c = ix2 e c := fun c =>
    funext fun a => Fin.ext (by match a with | ⟨0, _⟩ => rfl | ⟨1, _⟩ => rfl)
  have hr : ∀ c : Fin 24, Read.ridx_main_v19 (ix2 e j) c = ix2 c j := fun c =>
    funext fun a => Fin.ext (by match a with | ⟨0, _⟩ => rfl | ⟨1, _⟩ => rfl)
  rw [Read.val_main_v19_apply]
  simp only [hl, hr]
  rw [sum_fin24]
  simp only [v18_apply_0, v18_apply_1, v18_apply_2]

/-- The hidden layer of the edge stage at (e, j). -/
theorem v23_apply (e : Fin 3200000) (j : Fin 32) :
    Read.val_main_v23 (F := Ideal) x0 x1 x2 x3 x4 (ix2 e j)
      = max (((∑ k : Fin 8, x0 (ix2 (srcNode x1 e) k) * x3 (ix2 (⟨k.val, by omega⟩ : Fin 24) j)
          + ∑ k : Fin 8, x0 (ix2 (dstNode x1 e) k) * x3 (ix2 (⟨8 + k.val, by omega⟩ : Fin 24) j))
        + ∑ k : Fin 8, x2 (ix2 e k) * x3 (ix2 (⟨16 + k.val, by omega⟩ : Fin 24) j)) + x4 (ix1 j))
        (Ideal.ofBits .f32 0x00000000#32) := by
  have hb : Read.idx_main_v20 (Read.idx_main_v21 (ix2 e j)) = ix1 j :=
    funext fun a => Fin.ext (by match a with | ⟨0, _⟩ => rfl)
  rw [Read.val_main_v23_apply, Read.val_main_v22_apply, Read.val_main_call0_v0_apply, Read.val_main_call0_cst_apply,
    Read.val_main_v21_apply, Read.val_main_v20_apply, hb, v19_apply]
  rfl

/-- THE EDGE STAGE at (e, f). -/
theorem edge_apply (e : Fin 3200000) (f : Fin 8) :
    Read.val_main_v27 (F := Ideal) x0 x1 x2 x3 x4 x5 x6 (ix2 e f)
      = (∑ j : Fin 32,
          max (((∑ k : Fin 8, x0 (ix2 (srcNode x1 e) k) * x3 (ix2 (⟨k.val, by omega⟩ : Fin 24) j)
              + ∑ k : Fin 8, x0 (ix2 (dstNode x1 e) k) * x3 (ix2 (⟨8 + k.val, by omega⟩ : Fin 24) j))
            + ∑ k : Fin 8, x2 (ix2 e k) * x3 (ix2 (⟨16 + k.val, by omega⟩ : Fin 24) j)) + x4 (ix1 j))
            (Ideal.ofBits .f32 0x00000000#32)
          * x5 (ix2 j f))
        + x6 (ix1 f) := by
  have hl : ∀ j : Fin 32, Read.lidx_main_v24 (ix2 e f) j = ix2 e j := fun j =>
    funext fun a => Fin.ext (by match a with | ⟨0, _⟩ => rfl | ⟨1, _⟩ => rfl)
  have hr : ∀ j : Fin 32, Read.ridx_main_v24 (ix2 e f) j = ix2 j f := fun j =>
    funext fun a => Fin.ext (by match a with | ⟨0, _⟩ => rfl | ⟨1, _⟩ => rfl)
  have hb : Read.idx_main_v25 (Read.idx_main_v26 (ix2 e f)) = ix1 f :=
    funext fun a => Fin.ext (by match a with | ⟨0, _⟩ => rfl)
  rw [Read.val_main_v27_apply, Read.val_main_v26_apply, Read.val_main_v25_apply, hb, Read.val_main_v24_apply]
  simp only [hl, hr, v23_apply]
  rfl

/-! ## The aggregation stage -/

/-- The row scatter-add at (n, f): the zeros array's entry plus the sum, over the edges whose first integer, read
    signed and NOT wrapped, is n, of the edge stage's entry (e, f). -/
theorem v30_apply (n : Fin 100000) (f : Fin 8) :
    Read.val_main_v30 (F := Ideal) x0 x1 x2 x3 x4 x5 x6 (ix2 n f)
      = Ideal.ofBits .f32 0x00000000#32
        + ∑ e ∈ Finset.univ.filter (fun e : Fin 3200000 =>
            ((Read.val_main_v29 (F := Ideal) x1) (ix2 e 0)).toInt = (n.val : ℤ)),
          Read.val_main_v27 (F := Ideal) x0 x1 x2 x3 x4 x5 x6 (ix2 e f) :=
  (Cert.Lib.rowScatterAdd_apply (n := 100000) (m := 3200000) (b := 8)
    scatter_S100000x8_S3200000x1_S3200000x8_1_0_0_1.wf (Read.val_main_v28 (F := Ideal))
    (Read.val_main_v29 (F := Ideal) x1) (Read.val_main_v27 (F := Ideal) x0 x1 x2 x3 x4 x5 x6) n f).trans
    (congrArg (· + _) ((Read.val_main_v28_apply (F := Ideal) (ix2 n f)).trans (Read.val_main_cst_apply (F := Ideal) _)))

/-- The divisor at (n, f): the clamped count of node n. -/
theorem v38_apply (n : Fin 100000) (f : Fin 8) :
    Read.val_main_v38 (F := Ideal) x1 (ix2 n f) = Read.val_main_v36 (F := Ideal) x1 (ix1 n) := by
  have hb : Read.idx_main_v37 (Read.idx_main_v38 (ix2 n f)) = ix1 n :=
    funext fun a => Fin.ext (by match a with | ⟨0, _⟩ => rfl)
  rw [Read.val_main_v38_apply, Read.val_main_v37_apply, hb]

/-- THE AGGREGATION STAGE at (n, f). -/
theorem agg_apply (n : Fin 100000) (f : Fin 8) :
    Read.val_main_v39 (F := Ideal) x0 x1 x2 x3 x4 x5 x6 (ix2 n f)
      = Ideal.div
          (Ideal.ofBits .f32 0x00000000#32
            + ∑ e ∈ Finset.univ.filter (fun e : Fin 3200000 =>
                ((Read.val_main_v29 (F := Ideal) x1) (ix2 e 0)).toInt = (n.val : ℤ)),
              Read.val_main_v27 (F := Ideal) x0 x1 x2 x3 x4 x5 x6 (ix2 e f))
          (Read.val_main_v36 (F := Ideal) x1 (ix1 n)) := by
  rw [Read.val_main_v39_apply, v30_apply, v38_apply]
  rfl

/-! ## The node stage -/

/-- The 16 joined columns at node n: the node's own row, then its aggregate. -/
theorem v40_apply_0 (n : Fin 100000) (k : Fin 8) :
    Read.val_main_v40 (F := Ideal) x0 x1 x2 x3 x4 x5 x6 (ix2 n (⟨k.val, by omega⟩ : Fin 16)) = x0 (ix2 n k) :=
  concat2_apply_0 _ _ _ n k

theorem v40_apply_1 (n : Fin 100000) (k : Fin 8) :
    Read.val_main_v40 (F := Ideal) x0 x1 x2 x3 x4 x5 x6 (ix2 n (⟨8 + k.val, by omega⟩ : Fin 16))
      = Read.val_main_v39 (F := Ideal) x0 x1 x2 x3 x4 x5 x6 (ix2 n k) :=
  concat2_apply_1 _ _ _ n k

/-- The first product of the node stage at (n, j): the two blocks of the contraction. -/
theorem v41_apply (n : Fin 100000) (j : Fin 32) :
    Read.val_main_v41 (F := Ideal) x0 x1 x2 x3 x4 x5 x6 x7 (ix2 n j)
      = ∑ k : Fin 8, x0 (ix2 n k) * x7 (ix2 (⟨k.val, by omega⟩ : Fin 16) j)
        + ∑ k : Fin 8, Read.val_main_v39 (F := Ideal) x0 x1 x2 x3 x4 x5 x6 (ix2 n k)
            * x7 (ix2 (⟨8 + k.val, by omega⟩ : Fin 16) j) := by
  have hl : ∀ c : Fin 16, Read.lidx_main_v41 (ix2 n j) c = ix2 n c := fun c =>
    funext fun a => Fin.ext (by match a with | ⟨0, _⟩ => rfl | ⟨1, _⟩ => rfl)
  have hr : ∀ c : Fin 16, Read.ridx_main_v41 (ix2 n j) c = ix2 c j := fun c =>
    funext fun a => Fin.ext (by match a with | ⟨0, _⟩ => rfl | ⟨1, _⟩ => rfl)
  rw [Read.val_main_v41_apply]
  simp only [hl, hr]
  rw [sum_fin16]
  simp only [v40_apply_0, v40_apply_1]

/-- The hidden layer of the node stage at (n, j). -/
theorem v45_apply (n : Fin 100000) (j : Fin 32) :
    Read.val_main_v45 (F := Ideal) x0 x1 x2 x3 x4 x5 x6 x7 x8 (ix2 n j)
      = max ((∑ k : Fin 8, x0 (ix2 n k) * x7 (ix2 (⟨k.val, by omega⟩ : Fin 16) j)
          + ∑ k : Fin 8, Read.val_main_v39 (F := Ideal) x0 x1 x2 x3 x4 x5 x6 (ix2 n k)
              * x7 (ix2 (⟨8 + k.val, by omega⟩ : Fin 16) j)) + x8 (ix1 j))
        (Ideal.ofBits .f32 0x00000000#32) := by
  have hb : Read.idx_main_v42 (Read.idx_main_v43 (ix2 n j)) = ix1 j :=
    funext fun a => Fin.ext (by match a with | ⟨0, _⟩ => rfl)
  rw [Read.val_main_v45_apply, Read.val_main_v44_apply, Read.val_main_call1_v0_apply, Read.val_main_call1_cst_apply,
    Read.val_main_v43_apply, Read.val_main_v42_apply, hb, v41_apply]
  rfl

/-- THE NODE STAGE at (n, f). -/
theorem node_apply (n : Fin 100000) (f : Fin 8) :
    Read.val_main_v49 (F := Ideal) x0 x1 x2 x3 x4 x5 x6 x7 x8 x9 x10 (ix2 n f)
      = (∑ j : Fin 32,
          max ((∑ k : Fin 8, x0 (ix2 n k) * x7 (ix2 (⟨k.val, by omega⟩ : Fin 16) j)
              + ∑ k : Fin 8, Read.val_main_v39 (F := Ideal) x0 x1 x2 x3 x4 x5 x6 (ix2 n k)
                  * x7 (ix2 (⟨8 + k.val, by omega⟩ : Fin 16) j)) + x8 (ix1 j))
            (Ideal.ofBits .f32 0x00000000#32)
          * x9 (ix2 j f))
        + x10 (ix1 f) := by
  have hl : ∀ j : Fin 32, Read.lidx_main_v46 (ix2 n f) j = ix2 n j := fun j =>
    funext fun a => Fin.ext (by match a with | ⟨0, _⟩ => rfl | ⟨1, _⟩ => rfl)
  have hr : ∀ j : Fin 32, Read.ridx_main_v46 (ix2 n f) j = ix2 j f := fun j =>
    funext fun a => Fin.ext (by match a with | ⟨0, _⟩ => rfl | ⟨1, _⟩ => rfl)
  have hb : Read.idx_main_v47 (Read.idx_main_v48 (ix2 n f)) = ix1 f :=
    funext fun a => Fin.ext (by match a with | ⟨0, _⟩ => rfl)
  rw [Read.val_main_v49_apply, Read.val_main_v48_apply, Read.val_main_v47_apply, hb, Read.val_main_v46_apply]
  simp only [hl, hr, v45_apply]
  rfl

end Cert.ReferenceIdeal.RefStages

end
-- ==== Proof.RowNonneg.lean ====
/-
  What the precondition says of the edges' source nodes.

  The precondition's last conjunct is "every entry of the first row of the edge list is non-negative", printed as a
  signed comparison of that row with a row of zeros, reduced by "and" over all edges. Read back: at every edge the signed
  comparison "row entry ≥ 0" is true. A non-negative entry is left alone by the wrap "add the node count where the entry
  is negative", so under the precondition the wrapped row is the row itself.
-/
import proofs.«126178_j13786845020472_2_alg».proof.Defs
import Idealize.ShloMosaic.Lib.ReduceAll
import Idealize.ShloMosaic.Lib.ValueIdx
import Idealize.ShloMosaic.Lib.Pipeline.Value

namespace Cert.RowNonneg

open Idealize.ShloMosaic Idealize.ShloMosaic.ValueIdx

/-- A shape with no axes has one index. -/
instance scalarIdx_subsingleton : Subsingleton (⟨0, ![]⟩ : Shape).Idx := ⟨fun a b => funext fun d => d.elim0⟩

/-- A word that is not below zero (signed) is not replaced by the wrap: where "x < 0" is false the selection keeps x. -/
theorem wrap_of_sge (x a : BitVec 32) (h : IntOp.cmpi .sge x 0#32 = 1#1) :
    Scalar.select (IntOp.cmpi .slt x 0#32) a x = x := by
  unfold IntOp.cmpi at h ⊢
  unfold Scalar.select
  simp only at h ⊢
  have hs : x.slt 0#32 = false := by
    have h' : (0#32 : BitVec 32).sle x = true := by
      cases hb : (0#32 : BitVec 32).sle x
      · rw [hb] at h; exact absurd h (by decide)
      · rfl
    rw [BitVec.sle, decide_eq_true_eq] at h'
    rw [BitVec.slt, decide_eq_false_iff_not]
    omega
  rw [hs]
  rfl

/-- A scalar repeated over a vector reads that scalar everywhere. -/
theorem bcast_scalar_apply {α : Type} {n : ℕ} (v : (⟨0, ![]⟩ : Shape).Idx → α)
    (h : (⟨0, ![]⟩ : Shape).BroadcastsInDim ⟨1, ![n]⟩ (![] : Fin 0 → Fin 1)) (i : (⟨1, ![n]⟩ : Shape).Idx) :
    broadcastInDim ⟨1, ![n]⟩ ![] h v i = v ix0 :=
  broadcastInDim_apply _ h v i ix0 fun ax => ax.elim0

/-- The wrapped integers are the integers themselves when each is non-negative: for a vector of integers, a vector of
    zeros and any replacement values. -/
theorem wrapped_eq {n : ℕ} (row z a : IVec ⟨1, ![n]⟩ 32) (hz : ∀ i, z i = 0#32)
    (hrow : ∀ i, IntOp.cmpi .sge (row i) 0#32 = 1#1) :
    select (cmpi .slt row z) a row = row := by
  funext i
  show Scalar.select (IntOp.cmpi .slt (row i) (z i)) (a i) (row i) = row i
  rw [hz i]
  exact wrap_of_sge (row i) (a i) (hrow i)

section Pre
open Cert.Pre_finite_inputs

variable [Cert.Pre_finite_inputs.Facts]

/-- Under the precondition every entry of the edge list's first row passes the signed test "≥ 0". -/
theorem row_sge (a0 : FVec Ideal S100000x8 .f32) (a1 : IVec S2x3200000 32) (a2 : FVec Ideal S3200000x8 .f32)
    (a3 : FVec Ideal S24x32 .f32) (a4 : FVec Ideal S32 .f32) (a5 : FVec Ideal S32x8 .f32) (a6 : FVec Ideal S8 .f32)
    (a7 : FVec Ideal S16x32 .f32) (a8 : FVec Ideal S32 .f32) (a9 : FVec Ideal S32x8 .f32) (a10 : FVec Ideal S8 .f32)
    (h : fn (F := Ideal) a0 a1 a2 a3 a4 a5 a6 a7 a8 a9 a10 = fun _ => 1#1) (i : S3200000.Idx) :
    IntOp.cmpi .sge
      ((shapeCast S3200000 (extractStridedSlice S1x3200000 ![0, 0] a1 Facts.slices_S2x3200000_S1x3200000_0_0)
        Facts.shapeCasts_S1x3200000_S3200000) i) 0#32 = 1#1 := by
  have h0 := congrFun h ix0
  dsimp only [fn, fn_part1, fn_part2, fn_part3, andi] at h0
  obtain ⟨-, h1⟩ := IntOp.andi_eq_one.1 h0
  have h2 := Host.reduce_andi_all _ _ _ _ ix0 h1 i
  have hb := bcast_scalar_apply (constantI S_ 32 0#32) Facts.bcast_S_S3200000 i
  unfold cmpi at h2
  rw [hb] at h2
  exact h2

end Pre

end Cert.RowNonneg
-- ==== Proof.Bridge.lean ====
/-
  The two programs compute the same two arrays.

  Edge layer. In the kernel's layout an edge is a column: entry (f, e) of its output is the second layer's row f applied
  to the rectified hidden column of edge e, the hidden column being the sum of three products — the first layer's three
  row blocks of eight, transposed, against the source node's features, the target node's features and the edge's own
  features — plus the bias. The reference joins those three feature groups into one row of twenty-four and multiplies
  once. A sum over twenty-four terms is the sum of its three blocks of eight, and a product of two extended reals does not
  depend on the order of its factors, so the two entries are equal; nothing here needs the entries to be finite.

  Aggregation. Both programs add edge e's output onto node (source of e) and divide by the number of such edges. The
  kernel wraps a negative source integer by the node count first and the reference does not; under the precondition no
  source integer is negative, the wrap changes nothing, and the two sums run over the same edges.

  Node layer. As the edge layer, with the node's own features and its aggregated features as the two blocks of eight.
-/
import proofs.«126178_j13786845020472_2_alg».proof.Proof.KEntry
import proofs.«126178_j13786845020472_2_alg».proof.Proof.EdgeTile
import proofs.«126178_j13786845020472_2_alg».proof.Proof.NodeTile
import proofs.«126178_j13786845020472_2_alg».proof.Proof.RefStages
import proofs.«126178_j13786845020472_2_alg».proof.Proof.RowNonneg
import proofs.«126178_j13786845020472_2_alg».proof.Proof.Gen.Pre_finite_inputs

set_option maxRecDepth 16384

noncomputable section

namespace Cert.Bridge

open Cert.KernelIdeal Cert.KernelIdeal.Gen Cert.KernelIdeal.KFold Cert.KernelIdeal.KChain Cert.KernelIdeal.KEntry
open Idealize.ShloMosaic Idealize.ShloMosaic.TcCoe Idealize.SL.Sem Idealize.ShloMosaic.StableHlo Idealize.ShloMosaic.ValueIdx

/-- A product of two extended reals with both factors rewritten and exchanged. -/
theorem mul_congr_comm {a a' b b' : EReal} (h1 : a = a') (h2 : b = b') : a * b = b' * a' := by
  rw [h1, h2, mul_comm]

variable (m : (ℓ : Loc nD τ sig) → Buf (Elt Ideal) ℓ) (ρ : Dev nD → PrngReg) (c : Dev nD)

/-! ## The integer columns are the reference's -/

/-- The wrapped source (target) integers, as a column, are the same function of the edge list in both programs. -/
theorem srcCol_eq : srcCol m ρ c = Cert.ReferenceIdeal.Read.val_main_v9 (F := Ideal) (W0 m ρ c (Proc.devRef .tc main_arg1)) := rfl
theorem dstCol_eq : dstCol m ρ c = Cert.ReferenceIdeal.Read.val_main_v16 (F := Ideal) (W0 m ρ c (Proc.devRef .tc main_arg1)) := rfl

theorem src_node (e : Fin 3200000) : nodeOf (srcCol m ρ c) e = Cert.ReferenceIdeal.RefStages.srcNode (W0 m ρ c (Proc.devRef .tc main_arg1)) e :=
  Fin.ext (by unfold nodeOf Cert.ReferenceIdeal.RefStages.srcNode; rw [srcCol_eq])
theorem dst_node (e : Fin 3200000) : nodeOf (dstCol m ρ c) e = Cert.ReferenceIdeal.RefStages.dstNode (W0 m ρ c (Proc.devRef .tc main_arg1)) e :=
  Fin.ext (by unfold nodeOf Cert.ReferenceIdeal.RefStages.dstNode; rw [dstCol_eq])

/-! ## The edge layer -/

/-- Entry (f, e) of the kernel's edge array is entry (e, f) of the reference's edge result. -/
theorem edge_entry (f : Fin 8) (e : Fin 3200000) :
    edgeArr m ρ c (ix2 f e) = Cert.ReferenceIdeal.Read.val_main_v27 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (ix2 e f) := by
  rw [show edgeArr m ρ c (ix2 f e) = _ from Cert.KernelIdeal.EdgeTile.arr_apply (V1 m ρ) c f e,
    Cert.KernelIdeal.EdgeTile.mlp_def, Cert.ReferenceIdeal.RefStages.edge_apply]
  refine congrArg₂ (· + ·) (Finset.sum_congr rfl fun j _ => ?_) (v28_apply m ρ c f)
  rw [mul_comm]
  refine congrArg₂ (· * ·) (congrArg₂ (max : EReal → EReal → EReal) (congrArg₂ (· + ·) ?_ (v27_apply m ρ c j)) rfl)
    (v26_apply m ρ c f j)
  refine congrArg₂ (· + ·) (congrArg₂ (· + ·) ?_ ?_) ?_
  · exact Finset.sum_congr rfl fun k _ =>
      mul_congr_comm (v21_apply m ρ c j k)
        ((v11_apply m ρ c k e).trans (congrArg (fun n => (W0 m ρ c (Proc.devRef .tc main_arg0)) (ix2 n k)) (src_node m ρ c e)))
  · exact Finset.sum_congr rfl fun k _ =>
      mul_congr_comm (v23_apply m ρ c j k)
        ((v18_apply m ρ c k e).trans (congrArg (fun n => (W0 m ρ c (Proc.devRef .tc main_arg0)) (ix2 n k)) (dst_node m ρ c e)))
  · exact Finset.sum_congr rfl fun k _ =>
      mul_congr_comm (v25_apply m ρ c j k) (v19_apply m ρ c k e)

theorem edge_eq : W5 m ρ c (Proc.devRef .tc main_v60) = Cert.ReferenceIdeal.Read.val_main_v27 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) := by
  funext i
  obtain ⟨e, f, rfl⟩ : ∃ (e : Fin 3200000) (f : Fin 8), i = ix2 e f := ⟨i 0, i 1, eq_ix2 i⟩
  rw [res_edge]
  exact (transpose_ix2_apply _ _ e f).trans (edge_entry m ρ c f e)

/-! ## The aggregation, under the precondition -/

/-- Under the precondition every source integer passes the signed test "≥ 0". -/
theorem row_nonneg (hpre : Cert.Pre_KernelIdeal (hPre_finite_inputs := Cert.Pre_finite_inputs.Gen.facts) m) (i : S3200000.Idx) :
    IntOp.cmpi .sge (rowOf0 (W0 m ρ c (Proc.devRef .tc main_arg1)) i) 0#32 = 1#1 :=
  Cert.RowNonneg.row_sge (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (hpre c) i

/-- The raw source integers as a column. -/
theorem rawCol_eq : broadcastInDim S3200000x1 (![0] : Fin S3200000.rank → Fin S3200000x1.rank) bcast_S3200000_S3200000x1_0 (rowOf0 (W0 m ρ c (Proc.devRef .tc main_arg1)))
    = Cert.ReferenceIdeal.Read.val_main_v29 (F := Ideal) (W0 m ρ c (Proc.devRef .tc main_arg1)) := rfl

/-- No source integer is negative, so the wrapped column is the raw column. -/
theorem srcCol_wrap (hpre : Cert.Pre_KernelIdeal (hPre_finite_inputs := Cert.Pre_finite_inputs.Gen.facts) m) : srcCol m ρ c
    = broadcastInDim S3200000x1 (![0] : Fin S3200000.rank → Fin S3200000x1.rank) bcast_S3200000_S3200000x1_0 (rowOf0 (W0 m ρ c (Proc.devRef .tc main_arg1))) := by
  have hw := Cert.RowNonneg.wrapped_eq (rowOf0 (W0 m ρ c (Proc.devRef .tc main_arg1)))
    (broadcastInDim S3200000 ![] bcast_S_S3200000 (constantI S_ 32 0#32))
    (addi (rowOf0 (W0 m ρ c (Proc.devRef .tc main_arg1))) (broadcastInDim S3200000 ![] bcast_S_S3200000 (constantI S_ 32 100000#32)))
    (fun i => Cert.RowNonneg.bcast_scalar_apply (constantI S_ 32 0#32) bcast_S_S3200000 i)
    (row_nonneg m ρ c hpre)
  show wrapCol (rowOf0 (W0 m ρ c (Proc.devRef .tc main_arg1))) = _
  unfold wrapCol
  rw [hw]

/-- So the wrapped column is the raw column the reference scatters by. -/
theorem srcCol_raw (hpre : Cert.Pre_KernelIdeal (hPre_finite_inputs := Cert.Pre_finite_inputs.Gen.facts) m) : srcCol m ρ c = Cert.ReferenceIdeal.Read.val_main_v29 (F := Ideal) (W0 m ρ c (Proc.devRef .tc main_arg1)) :=
  (srcCol_wrap m ρ c hpre).trans (rawCol_eq m ρ c)

/-- Entry (k, n) of the kernel's aggregation is entry (n, k) of the reference's. -/
theorem agg_entry (hpre : Cert.Pre_KernelIdeal (hPre_finite_inputs := Cert.Pre_finite_inputs.Gen.facts) m) (k : Fin 8) (n : Fin 100000) :
    V3 m ρ c main_v51 (ix2 k n) = Cert.ReferenceIdeal.Read.val_main_v39 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (ix2 n k) := by
  rw [v51_apply, Cert.ReferenceIdeal.RefStages.agg_apply, srcCol_raw m ρ c hpre]
  refine congrArg₂ Ideal.div (congrArg₂ (· + ·) rfl (Finset.sum_congr rfl fun e _ => edge_entry m ρ c k e)) rfl

/-! ## The node layer -/

theorem node_entry (hpre : Cert.Pre_KernelIdeal (hPre_finite_inputs := Cert.Pre_finite_inputs.Gen.facts) m) (f : Fin 8) (n : Fin 100000) :
    (dat1 (F := Ideal) (V3 m ρ) c).arrAt 7 cfg1.N (ix2 f n) = Cert.ReferenceIdeal.Read.val_main_v49 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (ix2 n f) := by
  rw [Cert.KernelIdeal.NodeTile.arr_apply (V3 m ρ) c f n, Cert.KernelIdeal.NodeTile.mlp_def, Cert.ReferenceIdeal.RefStages.node_apply]
  refine congrArg₂ (· + ·) (Finset.sum_congr rfl fun j _ => ?_) (v58_apply m ρ c f)
  rw [mul_comm]
  refine congrArg₂ (· * ·) (congrArg₂ (max : EReal → EReal → EReal) (congrArg₂ (· + ·) ?_ (v57_apply m ρ c j)) rfl)
    (v56_apply m ρ c f j)
  refine congrArg₂ (· + ·) ?_ ?_
  · exact Finset.sum_congr rfl fun k _ =>
      mul_congr_comm (v53_apply m ρ c j k) (v4_apply m ρ c k n)
  · exact Finset.sum_congr rfl fun k _ =>
      mul_congr_comm (v55_apply m ρ c j k) (agg_entry m ρ c hpre k n)

theorem node_eq (hpre : Cert.Pre_KernelIdeal (hPre_finite_inputs := Cert.Pre_finite_inputs.Gen.facts) m) : W5 m ρ c (Proc.devRef .tc main_v61) = Cert.ReferenceIdeal.Read.val_main_v49 (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) := by
  funext i
  obtain ⟨n, f, rfl⟩ : ∃ (n : Fin 100000) (f : Fin 8), i = ix2 n f := ⟨i 0, i 1, eq_ix2 i⟩
  rw [res_node]
  exact (transpose_ix2_apply _ _ n f).trans (node_entry m ρ c hpre f n)

end Cert.Bridge

end
-- ==== Proof.lean ====
/-
  A message-passing step on a graph of 100000 nodes and 3200000 edges: an edge's new features are a two-layer
  perceptron of its source node's features, its target node's features and its own; a node's new features are a
  two-layer perceptron of its own features and the mean of the new features of the edges that leave it.

  The kernel program works with features down and edges (nodes) across: it transposes the node and edge features, gathers
  node columns, runs the edge perceptron as one pipelined region over twenty tiles of edges (three products against the
  three row blocks of the first weight matrix instead of one product against the joined row), sums the edge columns per
  source node by a scatter, divides by the counts, runs the node perceptron as a second region, and transposes the two
  results back. The reference does the same with plain matrix products on joined rows. At the ideal values the two
  results agree entry by entry: a sum over the joined columns is the sum of its blocks, products commute, and — the one
  place the precondition is used — no source integer is negative, so the kernel's wrap of negative integers changes
  nothing and both aggregations run over the same edges. Finiteness of the float inputs is never needed.

  The three frames are the generated ones (the reference's is its run with the results dropped); the idealization
  rewrote nothing, so there is nothing to preserve.
-/
import proofs.«126178_j13786845020472_2_alg».proof.Defs
import proofs.«126178_j13786845020472_2_alg».proof.Proof.Gen.Kernel
import proofs.«126178_j13786845020472_2_alg».proof.Proof.Gen.Kernel.Frame
import proofs.«126178_j13786845020472_2_alg».proof.Proof.Gen.KernelIdeal
import proofs.«126178_j13786845020472_2_alg».proof.Proof.Gen.KernelIdeal.Frame
import proofs.«126178_j13786845020472_2_alg».proof.Proof.Gen.ReferenceIdeal
import proofs.«126178_j13786845020472_2_alg».proof.Proof.Gen.ReferenceIdeal.Run
import proofs.«126178_j13786845020472_2_alg».proof.Proof.Gen.ReferenceIdeal.Read
import proofs.«126178_j13786845020472_2_alg».proof.Proof.Gen.Pre_finite_inputs
import proofs.«126178_j13786845020472_2_alg».proof.Proof.KRun
import proofs.«126178_j13786845020472_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both programs run; the kernel's two results are the last boundary's contents at its two result buffers, and the
    reference's two results are the same two arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W5 m ρ c (Proc.devRef .tc Cert.KernelIdeal.main_v60),
    fun c => Cert.KernelIdeal.Gen.W5 m ρ c (Proc.devRef .tc Cert.KernelIdeal.main_v61),
    Cert.KernelIdeal.KRun.run_named m ρ, ?_⟩
  refine (θ_run Cert.ReferenceIdeal.defs _ _).mono (fun r h c => ?_) (Cert.ReferenceIdeal.Value.run (F := Ideal) m' ρ')
  obtain ⟨h27, h49, hargs⟩ := h c
  obtain ⟨e0, e1, e2, e3, e4, e5, e6, e7, e8, e9, e10⟩ := hagree c
  refine ⟨h27.trans ?_, h49.trans ?_, hargs⟩
  · refine (Cert.ReferenceIdeal.Read.val_main_v27_eq _ _ _ _ _ _ _).trans ?_
    rw [e0, e1, e2, e3, e4, e5, e6]
    exact (Cert.Bridge.edge_eq m ρ c).symm
  · refine (Cert.ReferenceIdeal.Read.val_main_v49_eq m' c).trans ?_
    rw [e0, e1, e2, e3, e4, e5, e6, e7, e8, e9, e10]
    exact (Cert.Bridge.node_eq m ρ c hpre).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
